-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S500000 : Shape := ⟨1, ![500000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg13 : FVec F S128x16 .f32) (main_arg14 : FVec F S128x16 .f32) (main_arg15 : FVec F S16 .f32) (main_v33 : IVec S_ 1) : IVec S_ 1 :=
  let main_v34 : FVec F S128x16 .f32 := Host.absf main_arg13
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S128x16 .f32 := Host.absf main_arg14
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg15
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg10 : FVec F S128x128 .f32) (main_arg11 : FVec F S128x128 .f32) (main_arg12 : FVec F S128 .f32) (main_arg13 : FVec F S128x16 .f32) (main_arg14 : FVec F S128x16 .f32) (main_arg15 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_v33

def fn {F : FTy → Type} [FloatOps F] (main_arg0 : FVec F S100000x128 .f32) (main_arg1 : IVec S1600000 32) (main_arg2 : IVec S1600000 32) (main_arg3 : IVec S100000 32) (main_arg4 : IVec S100000 32) (main_arg5 : IVec S500000 32) (main_arg6 : IVec S500000 32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x16 .f32) (main_arg14 : FVec F S128x16 .f32) (main_arg15 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S100000 : Shape := ⟨1, ![100000]⟩
abbrev S500000 : Shape := ⟨1, ![500000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x16 : Shape := ⟨2, ![1, 16]⟩
abbrev S100000x16 : Shape := ⟨2, ![100000, 16]⟩
abbrev S5000x16 : Shape := ⟨2, ![5000, 16]⟩
abbrev S500000x1 : Shape := ⟨2, ![500000, 1]⟩
abbrev S500000x16 : Shape := ⟨2, ![500000, 16]⟩
abbrev S4000x16 : Shape := ⟨2, ![4000, 16]⟩
abbrev S4000x1 : Shape := ⟨2, ![4000, 1]⟩
abbrev S4000 : Shape := ⟨1, ![4000]⟩

abbrev nBuf : Space → Nat
  | .hbm => 120
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S100000, .i32⟩
  | .hbm, ⟨5, _⟩ => ⟨S500000, .i32⟩
  | .hbm, ⟨6, _⟩ => ⟨S500000, .i32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x16, .f32⟩
  | .hbm, ⟨14, _⟩ => ⟨S128x16, .f32⟩
  | .hbm, ⟨15, _⟩ => ⟨S16, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S1x16, .f32⟩
  | .hbm, ⟨81, _⟩ => ⟨S100000x16, .f32⟩
  | .hbm, ⟨82, _⟩ => ⟨S_, .i32⟩
  | .hbm, ⟨83, _⟩ => ⟨S100000, .i32⟩
  | .hbm, ⟨84, _⟩ => ⟨S100000, .i1⟩
  | .hbm, ⟨85, _⟩ => ⟨S_, .i32⟩
  | .hbm, ⟨86, _⟩ => ⟨S100000, .i32⟩
  | .hbm, ⟨87, _⟩ => ⟨S100000, .i32⟩
  | .hbm, ⟨88, _⟩ => ⟨S100000, .i32⟩
  | .hbm, ⟨89, _⟩ => ⟨S100000x1, .i32⟩
  | .hbm, ⟨90, _⟩ => ⟨S100000x16, .f32⟩
  | .hbm, ⟨91, _⟩ => ⟨S_, .i32⟩
  | .hbm, ⟨92, _⟩ => ⟨S100000, .i32⟩
  | .hbm, ⟨93, _⟩ => ⟨S100000, .i1⟩
  | .hbm, ⟨94, _⟩ => ⟨S_, .i32⟩
  | .hbm, ⟨95, _⟩ => ⟨S100000, .i32⟩
  | .hbm, ⟨96, _⟩ => ⟨S100000, .i32⟩
  | .hbm, ⟨97, _⟩ => ⟨S100000, .i32⟩
  | .hbm, ⟨98, _⟩ => ⟨S100000x1, .i32⟩
  | .hbm, ⟨99, _⟩ => ⟨S100000x16, .f32⟩
  | .hbm, ⟨100, _⟩ => ⟨S_, .i32⟩
  | .hbm, ⟨101, _⟩ => ⟨S500000, .i32⟩
  | .hbm, ⟨102, _⟩ => ⟨S500000, .i1⟩
  | .hbm, ⟨103, _⟩ => ⟨S_, .i32⟩
  | .hbm, ⟨104, _⟩ => ⟨S500000, .i32⟩
  | .hbm, ⟨105, _⟩ => ⟨S500000, .i32⟩
  | .hbm, ⟨106, _⟩ => ⟨S500000, .i32⟩
  | .hbm, ⟨107, _⟩ => ⟨S500000x1, .i32⟩
  | .hbm, ⟨108, _⟩ => ⟨S500000x16, .f32⟩
  | .hbm, ⟨109, _⟩ => ⟨S_, .i32⟩
  | .hbm, ⟨110, _⟩ => ⟨S500000, .i32⟩
  | .hbm, ⟨111, _⟩ => ⟨S500000, .i1⟩
  | .hbm, ⟨112, _⟩ => ⟨S_, .i32⟩
  | .hbm, ⟨113, _⟩ => ⟨S500000, .i32⟩
  | .hbm, ⟨114, _⟩ => ⟨S500000, .i32⟩
  | .hbm, ⟨115, _⟩ => ⟨S500000, .i32⟩
  | .hbm, ⟨116, _⟩ => ⟨S500000x1, .i32⟩
  | .hbm, ⟨117, _⟩ => ⟨S500000x16, .f32⟩
  | .hbm, ⟨118, _⟩ => ⟨S100000x1, .f32⟩
  | .hbm, ⟨119, _⟩ => ⟨S500000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x16, .f32⟩
  | .local _ .vmem, ⟨23, _⟩ => ⟨S128x16, .f32⟩
  | .local _ .vmem, ⟨24, _⟩ => ⟨S1x16, .f32⟩
  | .local _ .vmem, ⟨25, _⟩ => ⟨S5000x16, .f32⟩
  | .local _ .vmem, ⟨26, _⟩ => ⟨S5000x16, .f32⟩
  | .local _ .vmem, ⟨27, _⟩ => ⟨S4000x16, .f32⟩
  | .local _ .vmem, ⟨28, _⟩ => ⟨S4000x16, .f32⟩
  | .local _ .vmem, ⟨29, _⟩ => ⟨S4000x16, .f32⟩
  | .local _ .vmem, ⟨30, _⟩ => ⟨S4000x16, .f32⟩
  | .local _ .vmem, ⟨31, _⟩ => ⟨S4000x1, .f32⟩
  | .local _ .vmem, ⟨32, _⟩ => ⟨S4000x1, .f32⟩
  | .local _ .vmem, ⟨33, _⟩ => ⟨S4000x16, .f32⟩
  | .local _ .vmem, ⟨34, _⟩ => ⟨S4000x16, .f32⟩
  | .local _ .vmem, ⟨35, _⟩ => ⟨S4000x16, .f32⟩
  | .local _ .vmem, ⟨36, _⟩ => ⟨S4000x16, .f32⟩
  | .local _ .vmem, ⟨37, _⟩ => ⟨S4000x1, .f32⟩
  | .local _ .vmem, ⟨38, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_c_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S500000 : S_.BroadcastsInDim S500000 (![] : Fin 0 → Fin S500000.rank)
  bcast_S500000_S500000x1_0 : S500000.BroadcastsInDim S500000x1 (![0] : Fin 1 → Fin S500000x1.rank)
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  reduces_S4000x16_S4000 : S4000x16.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  gather_S100000x16_S100000x1_S100000x16_1_0_n_n_0_1_116_wf : GatherDims.WF S100000x16 S100000x1 S100000x16 [1] [0] [] [0] [] 1 ![1, 16]
  gather_S100000x16_S500000x1_S500000x16_1_0_n_n_0_1_116_wf : GatherDims.WF S100000x16 S500000x1 S500000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x16.size a ≤ S128x16.size a
  hwx2_2 : ∀ i : grid2.Coords, EltTy.bits .f32 = 32 ∨ (Rect.block (s := S128x16) S128x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x16.size a ≤ S128x16.size a
  hwx2_3 : ∀ i : grid2.Coords, EltTy.bits .f32 = 32 ∨ (Rect.block (s := S128x16) S128x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x16.size a ≤ S100000x16.size a
  hwx3_1 : ∀ i : grid3.Coords, EltTy.bits .f32 = 32 ∨ (Rect.block (s := S100000x16) S4000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x16.size a ≤ S500000x16.size a
  hwx4_0 : ∀ i : grid4.Coords, EltTy.bits .f32 = 32 ∨ (Rect.block (s := S500000x16) S4000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x16.size a ≤ S500000x16.size a
  hwx4_1 : ∀ i : grid4.Coords, EltTy.bits .f32 = 32 ∨ (Rect.block (s := S500000x16) S4000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S500000x1.size a
  hwx4_2 : ∀ i : grid4.Coords, EltTy.bits .f32 = 32 ∨ (Rect.block (s := S500000x1) S4000x1.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S100000x1_S100000x16_1_0_n_n_0_1_116 : GatherDims S100000x16 S100000x1 S100000x16 where
  offsetDims := [1]
  collapsedSliceDims := [0]
  operandBatchingDims := []
  startIndicesBatchingDims := []
  startIndexMap := [0]
  indexVectorDim := 1
  sliceSizes := ![1, 16]
  wf := gather_S100000x16_S100000x1_S100000x16_1_0_n_n_0_1_116_wf
def gather_S100000x16_S500000x1_S500000x16_1_0_n_n_0_1_116 : GatherDims S100000x16 S500000x1 S500000x16 where
  offsetDims := [1]
  collapsedSliceDims := [0]
  operandBatchingDims := []
  startIndicesBatchingDims := []
  startIndexMap := [0]
  indexVectorDim := 1
  sliceSizes := ![1, 16]
  wf := gather_S100000x16_S500000x1_S500000x16_1_0_n_n_0_1_116_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S4000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S4000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S4000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S4000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S4000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S500000 : Shape := ⟨1, ![500000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩
abbrev S500000x1 : Shape := ⟨2, ![500000, 1]⟩
abbrev S500000x16 : Shape := ⟨2, ![500000, 16]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S100000, .i32⟩
  | 5 => ⟨S500000, .i32⟩
  | 6 => ⟨S500000, .i32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x16, .f32⟩
  | 14 => ⟨S128x16, .f32⟩
  | 15 => ⟨S16, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S_, .f32⟩
  | 65 => ⟨S1600000, .f32⟩
  | 66 => ⟨S_, .f32⟩
  | 67 => ⟨S100000, .f32⟩
  | 68 => ⟨S1600000x1, .i32⟩
  | 69 => ⟨S100000, .f32⟩
  | 70 => ⟨S_, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S_, .f32⟩
  | 100 => ⟨S1600000, .f32⟩
  | 101 => ⟨S_, .f32⟩
  | 102 => ⟨S100000, .f32⟩
  | 103 => ⟨S1600000x1, .i32⟩
  | 104 => ⟨S100000, .f32⟩
  | 105 => ⟨S_, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S100000x16, .f32⟩
  | 113 => ⟨S100000x16, .f32⟩
  | 114 => ⟨S100000x16, .f32⟩
  | 115 => ⟨S1x16, .f32⟩
  | 116 => ⟨S100000x16, .f32⟩
  | 117 => ⟨S100000x16, .f32⟩
  | 118 => ⟨S_, .i32⟩
  | 119 => ⟨S100000, .i32⟩
  | 120 => ⟨S100000, .i1⟩
  | 121 => ⟨S_, .i32⟩
  | 122 => ⟨S100000, .i32⟩
  | 123 => ⟨S100000, .i32⟩
  | 124 => ⟨S100000, .i32⟩
  | 125 => ⟨S100000x1, .i32⟩
  | 126 => ⟨S100000x16, .f32⟩
  | 127 => ⟨S_, .i32⟩
  | _ => ⟨S100000x128, .f32⟩

abbrev hbmTy0_1 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S100000x1, .i32⟩
  | 7 => ⟨S100000x16, .f32⟩
  | 8 => ⟨S100000x16, .f32⟩
  | 9 => ⟨S_, .f32⟩
  | 10 => ⟨S100000, .f32⟩
  | 11 => ⟨S100000x1, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x16, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x16, .f32⟩
  | 30 => ⟨S500000x16, .f32⟩
  | 31 => ⟨S_, .f32⟩
  | 32 => ⟨S500000, .f32⟩
  | 33 => ⟨S500000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_call2_v0 : Ref sig .tc := ⟨.hbm, 71, rfl⟩
abbrev main_call2_v1 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call3_cst : Ref sig .tc := ⟨.hbm, 83, rfl⟩
abbrev main_call3_v0 : Ref sig .tc := ⟨.hbm, 84, rfl⟩
abbrev main_v49 : Ref sig .tc := ⟨.hbm, 85, rfl⟩
abbrev main_c_10 : Ref sig .tc := ⟨.hbm, 86, rfl⟩
abbrev main_v50 : Ref sig .tc := ⟨.hbm, 87, rfl⟩
abbrev main_v51 : Ref sig .tc := ⟨.hbm, 88, rfl⟩
abbrev main_c_11 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_12 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_15 : Ref sig .tc := ⟨.hbm, 105, rfl⟩
abbrev main_call4_v0 : Ref sig .tc := ⟨.hbm, 106, rfl⟩
abbrev main_call4_v1 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_c_16 : Ref sig .tc := ⟨.hbm, 118, rfl⟩
abbrev main_v74 : Ref sig .tc := ⟨.hbm, 119, rfl⟩
abbrev main_v75 : Ref sig .tc := ⟨.hbm, 120, rfl⟩
abbrev main_c_17 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_18 : Ref sig .tc := ⟨.hbm, 127, rfl⟩
abbrev main_v81 : Ref sig .tc := ⟨.hbm, 128, rfl⟩
abbrev main_v82 : Ref sig .tc := ⟨.hbm, 129, rfl⟩
abbrev main_c_19 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_20 : Ref sig .tc := ⟨.hbm, 137, rfl⟩
abbrev main_v89 : Ref sig .tc := ⟨.hbm, 138, rfl⟩
abbrev main_v90 : Ref sig .tc := ⟨.hbm, 139, rfl⟩
abbrev main_c_21 : Ref sig .tc := ⟨.hbm, 140, rfl⟩
abbrev main_v91 : Ref sig .tc := ⟨.hbm, 141, rfl⟩
abbrev main_v92 : Ref sig .tc := ⟨.hbm, 142, rfl⟩
abbrev main_c_22 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_c_23 : Ref sig .tc := ⟨.hbm, 149, rfl⟩
abbrev main_v98 : Ref sig .tc := ⟨.hbm, 150, rfl⟩
abbrev main_v99 : Ref sig .tc := ⟨.hbm, 151, rfl⟩
abbrev main_c_24 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_25 : Ref sig .tc := ⟨.hbm, 159, rfl⟩
abbrev main_v106 : Ref sig .tc := ⟨.hbm, 160, rfl⟩
abbrev main_v107 : Ref sig .tc := ⟨.hbm, 161, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  reducesTo_S500000x16_S500000_d1 : S500000x16.ReducesTo [1] S500000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []
  gather_S100000x16_S100000x1_S100000x16_1_0_n_n_0_1_116_wf : GatherDims.WF S100000x16 S100000x1 S100000x16 [1] [0] [] [0] [] 1 ![1, 16]
  gather_S100000x16_S500000x1_S500000x16_1_0_n_n_0_1_116_wf : GatherDims.WF S100000x16 S500000x1 S500000x16 [1] [0] [] [0] [] 1 ![1, 16]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S100000x1_S100000x16_1_0_n_n_0_1_116 : GatherDims S100000x16 S100000x1 S100000x16 where
  offsetDims := [1]
  collapsedSliceDims := [0]
  operandBatchingDims := []
  startIndicesBatchingDims := []
  startIndexMap := [0]
  indexVectorDim := 1
  sliceSizes := ![1, 16]
  wf := gather_S100000x16_S100000x1_S100000x16_1_0_n_n_0_1_116_wf
def gather_S100000x16_S500000x1_S500000x16_1_0_n_n_0_1_116 : GatherDims S100000x16 S500000x1 S500000x16 where
  offsetDims := [1]
  collapsedSliceDims := [0]
  operandBatchingDims := []
  startIndicesBatchingDims := []
  startIndexMap := [0]
  indexVectorDim := 1
  sliceSizes := ![1, 16]
  wf := gather_S100000x16_S500000x1_S500000x16_1_0_n_n_0_1_116_wf

class Facts : Prop extends Facts₀ where

variable [Facts]
-- ==== Proof.ValueRun.lean ====
/-
  The idealized kernel's run with its two results named.

  @main is five kernel regions among four stretches of host operations. The buffers' contents are followed from the
  launch memory through every boundary: a host stretch leaves the composed term of its operations, a region leaves
  each of its arrays at what its grid points wrote back and every other buffer as it found it. The run below keeps,
  besides the unchanged arguments, the two result arrays at the contents that fold ends with.
-/
import proofs.«158304_j10900626997366_2_alg».proof.Proof.Gen.KernelIdeal.Frame

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the contents the
    boundary fold ends with and every argument array as launched. -/
theorem run_results : θ_run defs (onTc (τ := τ) (main (F := F))) ⟨m, fun _ => 0, ρ⟩ (fun r => ∀ c : Dev nD,
      r.2.mem ((c.tc : Thread nD τ).loc main_v81) = W9 m ρ c (Proc.devRef .tc main_v81)
      ∧ r.2.mem ((c.tc : Thread nD τ).loc main_v82) = W9 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit (pcfgs (F := F)) adm (pdats m ρ) () cellOf_inj emb₁ defs₀ 𝒱₀ L lv m ρ main (segs m ρ)
    (fun c Q => by rw [main_run m ρ c]) ?distinct
    (O₀ := 0) (hL := fun _ _ => rfl) (G := fun _ => iprop(emp))
    (u₀ := initOf (Pipeline.cells cfgs cellOf_inj) (Pipeline.launchToks cfgs cellOf_inj))
    (hu₀ := ?launch)
    (T₀ := fun c => iprop(StableHlo.held (c : Thread nD τ) (Pipeline.ucRefs τ sig) (W0 m ρ c) ∗ R c)) (Tₙ := Tₙ m ρ)
    (hch := ?chain) (hinit := ?first)
    (QY := fun c s => ∀ b ∈ Pipeline.ucRefs τ sig, s.mem (((c : Thread nD τ)).1, b) = W9 m ρ c b)
    (hfin := ?last) (hQ := ?read)
  case distinct =>
    -- the five regions enter pipelines 0, 1, 2, 3, 4, each once
    simp only [segs, Pipeline.Seg.pipes_host, Pipeline.Seg.pipes_region, Pipeline.Seg.pipes_nil]
    decide
  case launch =>
    -- with no prefetched tables the pinned pipelines are the printed ones, so the launch element is the library's
    -- own; no core is dealt any further ghost resource
    have hcores : (BI.emp : sProp 𝕄) ⊢ bigSep Finset.univ (fun _ : Dev nD => (BI.emp : sProp 𝕄)) := by
      rw [BI.bigSep_emp_const]
    have hsame : (ownU (initOf (Pipeline.cells cfgs cellOf_inj) (Pipeline.launchToks cfgs cellOf_inj)) : sProp 𝕄)
        ⊢ BI.own (emb₁ (initOf (Pipeline.cells (Pipeline.pin (pcfgs (F := F)) adm) cellOf_inj)
            (Pipeline.launchToks (Pipeline.pin (pcfgs (F := F)) adm) cellOf_inj))) := .rfl
    iintro Hlaunch
    imodintro
    isplitl [Hlaunch]
    · iapply hsame
      iexact Hlaunch
    · iapply hcores
      iempintro
  case chain =>
    -- every segment starts in the thread state the one before it ends in
    exact ⟨fun _ => .rfl, fun _ => .rfl, fun _ => .rfl, fun _ => .rfl, fun _ => .rfl,
      fun _ => .rfl, fun _ => .rfl, fun _ => .rfl, fun _ => .rfl, fun _ => .rfl⟩
  case first =>
    -- on each core the launch deals the unscoped buffers at the launch memory, which are the first host stretch's
    -- buffers at their entry contents; the generator register and the empty debt ride along, the rest is let go
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Hdebt, -, Hreg, -⟩, -⟩
    imodintro
    isplitl [Hbufs]
    · iexact Hbufs
    isplitl [Hreg]
    · iexists (ρ c); iexact Hreg
    · iexists ∅; iexact Hdebt
  case last =>
    -- the last thread state holds every unscoped buffer whole at the end of the fold: read them all off the state
    intro c s'
    iintro ⟨⟨Hbufs, -⟩, Hstate⟩
    unfold StableHlo.held
    imodintro
    iapply (pointsTo_read_all (Pipeline.ucRefs τ sig) (fun b => (((c : Thread nD τ)).1, b)) (W9 m ρ c) s')
    isplitl [Hbufs]
    · iexact Hbufs
    · iexact Hstate
  case read =>
    -- the results are two of those buffers; an argument's contents walk back through the fold to the launch memory
    intro s hmem c
    exact ⟨hmem c _ (mem_uc main_v81 (by decide)),
      hmem c _ (mem_uc main_v82 (by decide)),
      (hmem c _ (mem_uc main_arg0 (by decide))).trans (W9_main_arg0 m ρ c),
      (hmem c _ (mem_uc main_arg1 (by decide))).trans (W9_main_arg1 m ρ c),
      (hmem c _ (mem_uc main_arg2 (by decide))).trans (W9_main_arg2 m ρ c),
      (hmem c _ (mem_uc main_arg3 (by decide))).trans (W9_main_arg3 m ρ c),
      (hmem c _ (mem_uc main_arg4 (by decide))).trans (W9_main_arg4 m ρ c),
      (hmem c _ (mem_uc main_arg5 (by decide))).trans (W9_main_arg5 m ρ c),
      (hmem c _ (mem_uc main_arg6 (by decide))).trans (W9_main_arg6 m ρ c),
      (hmem c _ (mem_uc main_arg7 (by decide))).trans (W9_main_arg7 m ρ c),
      (hmem c _ (mem_uc main_arg8 (by decide))).trans (W9_main_arg8 m ρ c),
      (hmem c _ (mem_uc main_arg9 (by decide))).trans (W9_main_arg9 m ρ c),
      (hmem c _ (mem_uc main_arg10 (by decide))).trans (W9_main_arg10 m ρ c),
      (hmem c _ (mem_uc main_arg11 (by decide))).trans (W9_main_arg11 m ρ c),
      (hmem c _ (mem_uc main_arg12 (by decide))).trans (W9_main_arg12 m ρ c),
      (hmem c _ (mem_uc main_arg13 (by decide))).trans (W9_main_arg13 m ρ c),
      (hmem c _ (mem_uc main_arg14 (by decide))).trans (W9_main_arg14 m ρ c),
      (hmem c _ (mem_uc main_arg15 (by decide))).trans (W9_main_arg15 m ρ c)⟩

end Cert.Sage.KernelRun

end
-- ==== Proof.HostTerms.lean ====
/-
  The kernel program's host side: the terms its stretches of host operations compute, named, and the buffers
  that are carried unchanged from one boundary to the next.

  Each layer's host stretch wraps negative source ids round by the number of nodes, gathers the source rows,
  scatter-adds them at the destination rows into zeros (the neighbour sums), and scales row `r` by the reciprocal
  of the clipped in-degree, which the first stretch computes once from a scatter-add of ones. The bias vector is
  reshaped to a row. The last stretch gathers the two endpoint rows of every scored pair.
-/
import proofs.«158304_j10900626997366_2_alg».proof.Proof.Gen.KernelIdeal.Frame
import Idealize.ShloMosaic.Lib.StableHlo.Run

noncomputable section

namespace Cert.Sage.K

open Cert.KernelIdeal Cert.KernelIdeal.Gen
open Idealize.ShloMosaic Idealize.ShloMosaic.TcCoe Idealize.ShloMosaic.StableHlo Idealize.SL.Sem

variable {F : FTy → Type} [FloatOps F]

/-! ## The host terms -/

/-- Edge sources as a column of start indices, a negative id counting from the end. -/
def startsE (src : (⟨S1600000, .i32⟩ : BufTy).Contents (Elt F)) : (⟨S1600000x1, .i32⟩ : BufTy).Contents (Elt F) :=
  broadcastInDim S1600000x1 ![0] bcast_S1600000_S1600000x1_0
    (select (cmpi CmpIPredicate.slt src (broadcastInDim S1600000 ![] bcast_S_S1600000 (constantI S_ 32 0#32)))
      (addi src (broadcastInDim S1600000 ![] bcast_S_S1600000 (constantI S_ 32 100000#32))) src)

/-- The same for the 100000 scored pairs' endpoints. -/
def startsP (idx : (⟨S100000, .i32⟩ : BufTy).Contents (Elt F)) : (⟨S100000x1, .i32⟩ : BufTy).Contents (Elt F) :=
  broadcastInDim S100000x1 ![0] bcast_S100000_S100000x1_0
    (select (cmpi CmpIPredicate.slt idx (broadcastInDim S100000 ![] bcast_S_S100000 (constantI S_ 32 0#32)))
      (addi idx (broadcastInDim S100000 ![] bcast_S_S100000 (constantI S_ 32 100000#32))) idx)

/-- The same for the 500000 scored pairs' endpoints. -/
def startsN (idx : (⟨S500000, .i32⟩ : BufTy).Contents (Elt F)) : (⟨S500000x1, .i32⟩ : BufTy).Contents (Elt F) :=
  broadcastInDim S500000x1 ![0] bcast_S500000_S500000x1_0
    (select (cmpi CmpIPredicate.slt idx (broadcastInDim S500000 ![] bcast_S_S500000 (constantI S_ 32 0#32)))
      (addi idx (broadcastInDim S500000 ![] bcast_S_S500000 (constantI S_ 32 100000#32))) idx)

/-- The neighbour sums: over all edges, row `src e` of `h` added into row `dst e` of zeros. -/
def nbrSum (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h (startsE src))

/-- The in-degrees: a one added into entry `dst e` of zeros for every edge. -/
def degree (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- One over the in-degree clipped below by one. -/
def invDeg (dst : (⟨S1600000, .i32⟩ : BufTy).Contents (Elt F)) : (⟨S100000, .f32⟩ : BufTy).Contents (Elt F) :=
  Host.divf (broadcastInDim S100000 ![] bcast_S_S100000 (constant S_ .f32 0x3F800000#32))
    (maximumf (degree dst) (broadcastInDim S100000 ![] bcast_S_S100000 (constant S_ .f32 0x3F800000#32)))

/-- Row `r` of `agg` scaled by entry `r` of `inv`. -/
def scaled (agg : (⟨S100000x128, .f32⟩ : BufTy).Contents (Elt F)) (inv : (⟨S100000, .f32⟩ : BufTy).Contents (Elt F)) : (⟨S100000x128, .f32⟩ : BufTy).Contents (Elt F) :=
  mulf agg (broadcastInDim S100000x128 ![0, 1] bcast_S100000x1_S100000x128_0_1
    (broadcastInDim S100000x1 ![0] bcast_S100000_S100000x1_0 inv))

/-- The neighbour means of `h`. -/
def nbrMean (h : (⟨S100000x128, .f32⟩ : BufTy).Contents (Elt F)) (src dst : (⟨S1600000, .i32⟩ : BufTy).Contents (Elt F)) : (⟨S100000x128, .f32⟩ : BufTy).Contents (Elt F) :=
  scaled (nbrSum h src dst) (invDeg dst)

/-- A vector of 128 biases as a row. -/
def biasRow128 (b : (⟨S128, .f32⟩ : BufTy).Contents (Elt F)) : (⟨S1x128, .f32⟩ : BufTy).Contents (Elt F) :=
  fun i => shapeCast S1x128 b shapeCasts_S128_S1x128 i

/-- A vector of 16 biases as a row. -/
def biasRow16 (b : (⟨S16, .f32⟩ : BufTy).Contents (Elt F)) : (⟨S1x16, .f32⟩ : BufTy).Contents (Elt F) :=
  fun i => shapeCast S1x16 b shapeCasts_S16_S1x16 i

/-- The endpoint rows of the 100000 scored pairs. -/
def rowsP (h : (⟨S100000x16, .f32⟩ : BufTy).Contents (Elt F)) (idx : (⟨S100000, .i32⟩ : BufTy).Contents (Elt F)) : (⟨S100000x16, .f32⟩ : BufTy).Contents (Elt F) :=
  Host.gather gather_S100000x16_S100000x1_S100000x16_1_0_n_n_0_1_116 h (startsP idx)

/-- The endpoint rows of the 500000 scored pairs. -/
def rowsN (h : (⟨S100000x16, .f32⟩ : BufTy).Contents (Elt F)) (idx : (⟨S500000, .i32⟩ : BufTy).Contents (Elt F)) : (⟨S500000x16, .f32⟩ : BufTy).Contents (Elt F) :=
  Host.gather gather_S100000x16_S500000x1_S500000x16_1_0_n_n_0_1_116 h (startsN idx)

variable (m : (ℓ : Loc nD τ sig) → Buf (Elt F) ℓ) (ρ : Dev nD → PrngReg) (c : Dev nD)

/-! ## The arguments, carried

No host operation and no region writes an argument array, so at every boundary where a later stretch or region
reads one it still holds its launch contents. One line each: a stretch that does not write a buffer leaves it, a
region leaves every buffer that is not one of its arrays. -/

theorem W1_arg0 : W1 m ρ c (Proc.devRef .tc main_arg0) = m ((c : Thread nD τ).loc main_arg0) := by
  dsimp only [W1]; after_results_simp <;> rfl
theorem W1_arg1 : W1 m ρ c (Proc.devRef .tc main_arg1) = m ((c : Thread nD τ).loc main_arg1) := by
  dsimp only [W1]; after_results_simp <;> rfl
theorem W1_arg2 : W1 m ρ c (Proc.devRef .tc main_arg2) = m ((c : Thread nD τ).loc main_arg2) := by
  dsimp only [W1]; after_results_simp <;> rfl
theorem W1_arg3 : W1 m ρ c (Proc.devRef .tc main_arg3) = m ((c : Thread nD τ).loc main_arg3) := by
  dsimp only [W1]; after_results_simp <;> rfl
theorem W1_arg4 : W1 m ρ c (Proc.devRef .tc main_arg4) = m ((c : Thread nD τ).loc main_arg4) := by
  dsimp only [W1]; after_results_simp <;> rfl
theorem W1_arg5 : W1 m ρ c (Proc.devRef .tc main_arg5) = m ((c : Thread nD τ).loc main_arg5) := by
  dsimp only [W1]; after_results_simp <;> rfl
theorem W1_arg6 : W1 m ρ c (Proc.devRef .tc main_arg6) = m ((c : Thread nD τ).loc main_arg6) := by
  dsimp only [W1]; after_results_simp <;> rfl
theorem W1_arg7 : W1 m ρ c (Proc.devRef .tc main_arg7) = m ((c : Thread nD τ).loc main_arg7) := by
  dsimp only [W1]; after_results_simp <;> rfl
theorem W1_arg8 : W1 m ρ c (Proc.devRef .tc main_arg8) = m ((c : Thread nD τ).loc main_arg8) := by
  dsimp only [W1]; after_results_simp <;> rfl
theorem W1_arg9 : W1 m ρ c (Proc.devRef .tc main_arg9) = m ((c : Thread nD τ).loc main_arg9) := by
  dsimp only [W1]; after_results_simp <;> rfl
theorem W1_arg10 : W1 m ρ c (Proc.devRef .tc main_arg10) = m ((c : Thread nD τ).loc main_arg10) := by
  dsimp only [W1]; after_results_simp <;> rfl
theorem W1_arg11 : W1 m ρ c (Proc.devRef .tc main_arg11) = m ((c : Thread nD τ).loc main_arg11) := by
  dsimp only [W1]; after_results_simp <;> rfl
theorem W1_arg12 : W1 m ρ c (Proc.devRef .tc main_arg12) = m ((c : Thread nD τ).loc main_arg12) := by
  dsimp only [W1]; after_results_simp <;> rfl
theorem W1_arg13 : W1 m ρ c (Proc.devRef .tc main_arg13) = m ((c : Thread nD τ).loc main_arg13) := by
  dsimp only [W1]; after_results_simp <;> rfl
theorem W1_arg14 : W1 m ρ c (Proc.devRef .tc main_arg14) = m ((c : Thread nD τ).loc main_arg14) := by
  dsimp only [W1]; after_results_simp <;> rfl
theorem W1_arg15 : W1 m ρ c (Proc.devRef .tc main_arg15) = m ((c : Thread nD τ).loc main_arg15) := by
  dsimp only [W1]; after_results_simp <;> rfl
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W3_arg1 : W3 m ρ c (Proc.devRef .tc main_arg1) = m ((c : Thread nD τ).loc main_arg1) :=
  (show W3 m ρ c (Proc.devRef .tc main_arg1) = W2 m ρ c (Proc.devRef .tc main_arg1) by dsimp only [W3]; after_results_simp <;> rfl).trans (W2_arg1 m ρ c)
theorem W3_arg2 : W3 m ρ c (Proc.devRef .tc main_arg2) = m ((c : Thread nD τ).loc main_arg2) :=
  (show W3 m ρ c (Proc.devRef .tc main_arg2) = W2 m ρ c (Proc.devRef .tc main_arg2) by dsimp only [W3]; after_results_simp <;> rfl).trans (W2_arg2 m ρ c)
theorem W3_arg3 : W3 m ρ c (Proc.devRef .tc main_arg3) = m ((c : Thread nD τ).loc main_arg3) :=
  (show W3 m ρ c (Proc.devRef .tc main_arg3) = W2 m ρ c (Proc.devRef .tc main_arg3) by dsimp only [W3]; after_results_simp <;> rfl).trans (W2_arg3 m ρ c)
theorem W3_arg4 : W3 m ρ c (Proc.devRef .tc main_arg4) = m ((c : Thread nD τ).loc main_arg4) :=
  (show W3 m ρ c (Proc.devRef .tc main_arg4) = W2 m ρ c (Proc.devRef .tc main_arg4) by dsimp only [W3]; after_results_simp <;> rfl).trans (W2_arg4 m ρ c)
theorem W3_arg5 : W3 m ρ c (Proc.devRef .tc main_arg5) = m ((c : Thread nD τ).loc main_arg5) :=
  (show W3 m ρ c (Proc.devRef .tc main_arg5) = W2 m ρ c (Proc.devRef .tc main_arg5) by dsimp only [W3]; after_results_simp <;> rfl).trans (W2_arg5 m ρ c)
theorem W3_arg6 : W3 m ρ c (Proc.devRef .tc main_arg6) = m ((c : Thread nD τ).loc main_arg6) :=
  (show W3 m ρ c (Proc.devRef .tc main_arg6) = W2 m ρ c (Proc.devRef .tc main_arg6) by dsimp only [W3]; after_results_simp <;> rfl).trans (W2_arg6 m ρ c)
theorem W3_arg10 : W3 m ρ c (Proc.devRef .tc main_arg10) = m ((c : Thread nD τ).loc main_arg10) :=
  (show W3 m ρ c (Proc.devRef .tc main_arg10) = W2 m ρ c (Proc.devRef .tc main_arg10) by dsimp only [W3]; after_results_simp <;> rfl).trans (W2_arg10 m ρ c)
theorem W3_arg11 : W3 m ρ c (Proc.devRef .tc main_arg11) = m ((c : Thread nD τ).loc main_arg11) :=
  (show W3 m ρ c (Proc.devRef .tc main_arg11) = W2 m ρ c (Proc.devRef .tc main_arg11) by dsimp only [W3]; after_results_simp <;> rfl).trans (W2_arg11 m ρ c)
theorem W3_arg12 : W3 m ρ c (Proc.devRef .tc main_arg12) = m ((c : Thread nD τ).loc main_arg12) :=
  (show W3 m ρ c (Proc.devRef .tc main_arg12) = W2 m ρ c (Proc.devRef .tc main_arg12) by dsimp only [W3]; after_results_simp <;> rfl).trans (W2_arg12 m ρ c)
theorem W3_arg13 : W3 m ρ c (Proc.devRef .tc main_arg13) = m ((c : Thread nD τ).loc main_arg13) :=
  (show W3 m ρ c (Proc.devRef .tc main_arg13) = W2 m ρ c (Proc.devRef .tc main_arg13) by dsimp only [W3]; after_results_simp <;> rfl).trans (W2_arg13 m ρ c)
theorem W3_arg14 : W3 m ρ c (Proc.devRef .tc main_arg14) = m ((c : Thread nD τ).loc main_arg14) :=
  (show W3 m ρ c (Proc.devRef .tc main_arg14) = W2 m ρ c (Proc.devRef .tc main_arg14) by dsimp only [W3]; after_results_simp <;> rfl).trans (W2_arg14 m ρ c)
theorem W3_arg15 : W3 m ρ c (Proc.devRef .tc main_arg15) = m ((c : Thread nD τ).loc main_arg15) :=
  (show W3 m ρ c (Proc.devRef .tc main_arg15) = W2 m ρ c (Proc.devRef .tc main_arg15) by dsimp only [W3]; after_results_simp <;> rfl).trans (W2_arg15 m ρ c)
theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)
theorem W5_arg1 : W5 m ρ c (Proc.devRef .tc main_arg1) = m ((c : Thread nD τ).loc main_arg1) :=
  (show W5 m ρ c (Proc.devRef .tc main_arg1) = W4 m ρ c (Proc.devRef .tc main_arg1) by dsimp only [W5]; after_results_simp <;> rfl).trans (W4_arg1 m ρ c)
theorem W5_arg2 : W5 m ρ c (Proc.devRef .tc main_arg2) = m ((c : Thread nD τ).loc main_arg2) :=
  (show W5 m ρ c (Proc.devRef .tc main_arg2) = W4 m ρ c (Proc.devRef .tc main_arg2) by dsimp only [W5]; after_results_simp <;> rfl).trans (W4_arg2 m ρ c)
theorem W5_arg3 : W5 m ρ c (Proc.devRef .tc main_arg3) = m ((c : Thread nD τ).loc main_arg3) :=
  (show W5 m ρ c (Proc.devRef .tc main_arg3) = W4 m ρ c (Proc.devRef .tc main_arg3) by dsimp only [W5]; after_results_simp <;> rfl).trans (W4_arg3 m ρ c)
theorem W5_arg4 : W5 m ρ c (Proc.devRef .tc main_arg4) = m ((c : Thread nD τ).loc main_arg4) :=
  (show W5 m ρ c (Proc.devRef .tc main_arg4) = W4 m ρ c (Proc.devRef .tc main_arg4) by dsimp only [W5]; after_results_simp <;> rfl).trans (W4_arg4 m ρ c)
theorem W5_arg5 : W5 m ρ c (Proc.devRef .tc main_arg5) = m ((c : Thread nD τ).loc main_arg5) :=
  (show W5 m ρ c (Proc.devRef .tc main_arg5) = W4 m ρ c (Proc.devRef .tc main_arg5) by dsimp only [W5]; after_results_simp <;> rfl).trans (W4_arg5 m ρ c)
theorem W5_arg6 : W5 m ρ c (Proc.devRef .tc main_arg6) = m ((c : Thread nD τ).loc main_arg6) :=
  (show W5 m ρ c (Proc.devRef .tc main_arg6) = W4 m ρ c (Proc.devRef .tc main_arg6) by dsimp only [W5]; after_results_simp <;> rfl).trans (W4_arg6 m ρ c)
theorem W5_arg13 : W5 m ρ c (Proc.devRef .tc main_arg13) = m ((c : Thread nD τ).loc main_arg13) :=
  (show W5 m ρ c (Proc.devRef .tc main_arg13) = W4 m ρ c (Proc.devRef .tc main_arg13) by dsimp only [W5]; after_results_simp <;> rfl).trans (W4_arg13 m ρ c)
theorem W5_arg14 : W5 m ρ c (Proc.devRef .tc main_arg14) = m ((c : Thread nD τ).loc main_arg14) :=
  (show W5 m ρ c (Proc.devRef .tc main_arg14) = W4 m ρ c (Proc.devRef .tc main_arg14) by dsimp only [W5]; after_results_simp <;> rfl).trans (W4_arg14 m ρ c)
theorem W5_arg15 : W5 m ρ c (Proc.devRef .tc main_arg15) = m ((c : Thread nD τ).loc main_arg15) :=
  (show W5 m ρ c (Proc.devRef .tc main_arg15) = W4 m ρ c (Proc.devRef .tc main_arg15) by dsimp only [W5]; after_results_simp <;> rfl).trans (W4_arg15 m ρ c)
theorem W6_arg3 : W6 m ρ c (Proc.devRef .tc main_arg3) = m ((c : Thread nD τ).loc main_arg3) :=
  (W6_of_ne m ρ c main_arg3 (by decide)).trans (W5_arg3 m ρ c)
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)

/-! ## The reciprocal degrees, computed by the first stretch and read by all three -/

theorem W1_v7 : W1 m ρ c (Proc.devRef .tc main_v7) = invDeg (m ((c : Thread nD τ).loc main_arg2)) := by
  dsimp only [W1]; after_results_simp <;> rfl
theorem W2_v7 : W2 m ρ c (Proc.devRef .tc main_v7) = invDeg (m ((c : Thread nD τ).loc main_arg2)) :=
  (W2_of_ne m ρ c main_v7 (by decide)).trans (W1_v7 m ρ c)
theorem W3_v7 : W3 m ρ c (Proc.devRef .tc main_v7) = invDeg (m ((c : Thread nD τ).loc main_arg2)) :=
  (show W3 m ρ c (Proc.devRef .tc main_v7) = W2 m ρ c (Proc.devRef .tc main_v7) by dsimp only [W3]; after_results_simp <;> rfl).trans (W2_v7 m ρ c)
theorem W4_v7 : W4 m ρ c (Proc.devRef .tc main_v7) = invDeg (m ((c : Thread nD τ).loc main_arg2)) :=
  (W4_of_ne m ρ c main_v7 (by decide)).trans (W3_v7 m ρ c)

end Cert.Sage.K

end
-- ==== Proof.Spec.lean ====
/-
  The pointwise specification both programs are read against.

  A graph layer sends node features `h : n × d` and normalised neighbour sums `hn : n × d` to
  `h · Ws + hn · Wn + b`, entry `(r, j)` being two sums over the `d` input features plus the bias entry `j`;
  an edge score is the sum over the features of the products of the two endpoint rows.
  Everything is over the extended reals, indices are literal coordinates, and the arrays are passed as
  functions of their coordinates so that no program's shape names are needed here.
-/
import Idealize.ShloMosaic.PureOps.Ideal
import Idealize.ShloMosaic.Lib.ValueIdx

noncomputable section

namespace Cert.Sage

open scoped BigOperators

/-- Entry `(r, j)` of `h · Ws + hn · Wn + b`: the self term, the neighbour term, the bias. -/
def layerAt {n d e : Nat} (h hn : Fin n → Fin d → EReal) (ws wn : Fin d → Fin e → EReal) (b : Fin e → EReal)
    (r : Fin n) (j : Fin e) : EReal :=
  (∑ k : Fin d, h r k * ws k j) + (∑ k : Fin d, hn r k * wn k j) + b j

/-- The score of pair `p`: the inner product of the two endpoint rows over the `d` features. -/
def pairAt {n d : Nat} (gu gv : Fin n → Fin d → EReal) (p : Fin n) : EReal :=
  ∑ k : Fin d, gu p k * gv p k

end Cert.Sage

end
-- ==== Proof.CombineBlocks.lean ====
/-
  The three row-blocked "combine" layers, read as whole arrays.

  Each layer's kernel body takes a block of 5000 rows of the node features `h` and of the neighbour sums `hn`,
  the two weight matrices whole and the bias row, and stores  h·Ws + hn·Wn + b  (the first two layers followed by
  a maximum with 0) into the matching 5000 rows of the output.  Entry (p, j) of the block depends on row p of the two
  input blocks, column j of the two weight matrices and entry j of the bias row; the 20 blocks of 5000 rows tile the
  100000 rows, so the output array is the layer's formula at every index.  The reference computes the same formula
  with two `dot_general`s, two adds, two broadcasts of the bias (and the maximum against a broadcast zero).
-/
import proofs.«158304_j10900626997366_2_alg».proof.Proof.Gen.KernelIdeal.Frame
import proofs.«158304_j10900626997366_2_alg».proof.ReferenceIdeal
import proofs.«158304_j10900626997366_2_alg».proof.Proof.Gen.ReferenceIdeal
import proofs.«158304_j10900626997366_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Sage.Combine

open Idealize.ShloMosaic Idealize.ShloMosaic.TcCoe Idealize.SL.Sem Idealize.ShloMosaic.ValueIdx
open Idealize.ShloMosaic.Pipeline (Dat)

/-! ## The kernel side -/

section Kernel

open Cert.KernelIdeal Cert.KernelIdeal.Gen

/-- The zero offsets of a whole-buffer access. -/
theorem zeroOff : (![0, 0] : Fin 2 → Nat) = fun _ => 0 := funext fun a => by fin_cases a <;> rfl

/-! ### What an entry of a layer depends on -/

/-- The layer's formula depends on row `r` of the two feature arrays, column `j` of the two weight matrices and
    entry `j` of the bias only. -/
theorem layerAt_congr {n n' d e : Nat} {h hn : Fin n → Fin d → EReal} {h' hn' : Fin n' → Fin d → EReal}
    {ws wn ws' wn' : Fin d → Fin e → EReal} {b b' : Fin e → EReal} {r : Fin n} {r' : Fin n'} {j j' : Fin e}
    (e1 : ∀ k, h r k = h' r' k) (e2 : ∀ k, hn r k = hn' r' k) (e3 : ∀ k, ws k j = ws' k j') (e4 : ∀ k, wn k j = wn' k j')
    (e5 : b j = b' j') :
    Cert.Sage.layerAt h hn ws wn b r j = Cert.Sage.layerAt h' hn' ws' wn' b' r' j' := by
  unfold Cert.Sage.layerAt
  have s1 : ∑ k : Fin d, h r k * ws k j = ∑ k : Fin d, h' r' k * ws' k j' := Finset.sum_congr rfl fun k _ => by rw [e1 k, e3 k]
  have s2 : ∑ k : Fin d, hn r k * wn k j = ∑ k : Fin d, hn' r' k * wn' k j' := Finset.sum_congr rfl fun k _ => by rw [e2 k, e4 k]
  rw [s1, s2, e5]

/-! ### One matrix product at an index

A `tpu.matmul` of a [5000,128] block with a [128,e] matrix into a zero accumulator, at (p, j), is the sum over the
128 features k of  lhs (p, k) · rhs (k, j): the contraction index has one axis, of extent 128. -/

theorem mm128_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm128_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mm128_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mm128_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block of 5000 rows with a [128,128] matrix into a zero accumulator, at (p, j). -/
theorem mm128_apply (a : FVec Ideal S5000x128 .bf16) (w : FVec Ideal S128x128 .bf16) (p : Fin 5000) (j : Fin 128) :
    matmul dot_S5000x128_S128x128_S5000x128_1_0_0_1_n_n none a w (constant S5000x128 .f32 0x00000000#32) (ix2 p j)
      = ∑ k : Fin 128, a (ix2 p k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun b => Fin.ext (by
    match b with
    | ⟨0, _⟩ => exact mm128_lhs0 _ _
    | ⟨1, _⟩ => exact (mm128_lhs1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun b => Fin.ext (by
    match b with
    | ⟨0, _⟩ => exact (mm128_rhs0 _ _).trans hk
    | ⟨1, _⟩ => exact mm128_rhs1 _ _)
  rw [el, er]

theorem mm16_lhs0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem mm16_lhs1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem mm16_rhs0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem mm16_rhs1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The product of a block of 5000 rows with a [128,16] matrix into a zero accumulator, at (p, j). -/
theorem mm16_apply (a : FVec Ideal S5000x128 .bf16) (w : FVec Ideal S128x16 .bf16) (p : Fin 5000) (j : Fin 16) :
    matmul dot_S5000x128_S128x16_S5000x16_1_0_0_1_n_n none a w (constant S5000x16 .f32 0x00000000#32) (ix2 p j)
      = ∑ k : Fin 128, a (ix2 p k) * w (ix2 k j) := by
  simp only [matmul]
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p j) ((contrEquiv1 dot_S5000x128_S128x16_S5000x16_1_0_0_1_n_n 128 rfl rfl).symm k) = ix2 p k := funext fun b => Fin.ext (by
    match b with
    | ⟨0, _⟩ => exact mm16_lhs0 _ _
    | ⟨1, _⟩ => exact (mm16_lhs1 _ _).trans hk)
  have er : dot_S5000x128_S128x16_S5000x16_1_0_0_1_n_n.rhsIdx (ix2 p j) ((contrEquiv1 dot_S5000x128_S128x16_S5000x16_1_0_0_1_n_n 128 rfl rfl).symm k) = ix2 k j := funext fun b => Fin.ext (by
    match b with
    | ⟨0, _⟩ => exact (mm16_rhs0 _ _).trans hk
    | ⟨1, _⟩ => exact mm16_rhs1 _ _)
  rw [el, er]

/-- The bias row broadcast over the 5000 rows of a block, at (p, j), is its entry j. -/
theorem biasRow128_apply (b : Vec Ideal S1x128 .f32) (p : Fin 5000) (j : Fin 128) :
    broadcastTo S5000x128 (shapeCast S1x128 b shapeCasts_S1x128_S1x128) broadcasts_S1x128_S5000x128 (ix2 p j) = b (ix2 (0 : Fin 1) j) := by
  rw [shapeCast_self]
  exact broadcastTo_1b_ab_apply b broadcasts_S1x128_S5000x128 p j

/-- The bias row broadcast over the 5000 rows of a block, at (p, j), is its entry j. -/
theorem biasRow16_apply (b : Vec Ideal S1x16 .f32) (p : Fin 5000) (j : Fin 16) :
    broadcastTo S5000x16 (shapeCast S1x16 b shapeCasts_S1x16_S1x16) broadcasts_S1x16_S5000x16 (ix2 p j) = b (ix2 (0 : Fin 1) j) := by
  rw [shapeCast_self]
  exact broadcastTo_1b_ab_apply b broadcasts_S1x16_S5000x16 p j

/-- Entry (p, j) of layer 1's body: the layer's formula on row p of the two input blocks, followed by the
    maximum with 0. -/
theorem pay0_apply (v0 v2 : Vec Ideal S5000x128 .f32) (v5 v7 : Vec Ideal S128x128 .f32) (v12 : Vec Ideal S1x128 .f32)
    (p : Fin 5000) (j : Fin 128) :
    k0_pay1 (F := Ideal) v0 v2 v5 v7 v12 (ix2 p j)
      = max (Cert.Sage.layerAt (fun (r : Fin 5000) (k : Fin 128) => v0 (ix2 r k)) (fun (r : Fin 5000) (k : Fin 128) => v2 (ix2 r k))
          (fun (k : Fin 128) (j : Fin 128) => v5 (ix2 k j)) (fun (k : Fin 128) (j : Fin 128) => v7 (ix2 k j))
          (fun (j : Fin 128) => v12 (ix2 (0 : Fin 1) j)) p j) 0 := by
  unfold k0_pay1
  rw [maximumf_apply, addf_apply, addf_apply, mm128_apply, mm128_apply, biasRow128_apply, broadcast_apply]
  simp only [truncf_apply, shapeCast_self]
  show max _ (Ideal.ofBits .f32 0x00000000#32) = _
  rw [Ideal.ofBits_zero_f32]
  rfl

/-- The same at an index of the block given by its two coordinates. -/
theorem pay0_at (v0 v2 : Vec Ideal S5000x128 .f32) (v5 v7 : Vec Ideal S128x128 .f32) (v12 : Vec Ideal S1x128 .f32)
    (y : S5000x128.Idx) :
    k0_pay1 (F := Ideal) v0 v2 v5 v7 v12 y
      = max (Cert.Sage.layerAt (fun (r : Fin 5000) (k : Fin 128) => v0 (ix2 r k)) (fun (r : Fin 5000) (k : Fin 128) => v2 (ix2 r k))
          (fun (k : Fin 128) (j : Fin 128) => v5 (ix2 k j)) (fun (k : Fin 128) (j : Fin 128) => v7 (ix2 k j))
          (fun (j : Fin 128) => v12 (ix2 (0 : Fin 1) j)) ⟨(y 0).val, (y 0).isLt⟩ ⟨(y 1).val, (y 1).isLt⟩) 0 := by
  obtain ⟨p, j, rfl⟩ : ∃ (p : Fin 5000) (j : Fin 128), y = ix2 p j := ⟨y 0, y 1, eq_ix2 y⟩
  exact pay0_apply v0 v2 v5 v7 v12 p j

/-! ### Layer 1: from the blocks to the array -/

section Region0
variable (V : (c : Dev nD) → (b : Ref sig .tc) → Buf (Elt Ideal) ((c : Thread nD τ).loc b))

/-- The index maps over the 20 points: a row-blocked window sits at block (t, 0), a whole-array window at (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 5000·t … 5000·t + 4999 of its array. -/
theorem blk0_0 (c : Dev nD) (t : Fin cfg0.N) (x : S5000x128.Idx) (i : S100000x128.Idx)
    (h0 : (i 0).val = t.val * 5000 + (x 0).val) (h1 : (i 1).val = (x 1).val) :
    (iblk0 V c 0 t : Vec Ideal S5000x128 .f32) x = (V c main_arg0 : S100000x128.Idx → Elt Ideal .f32) i := by
  obtain ⟨e00, e01, e10, e11, e20, e21, e30, e31, e40, e41, e50, e51⟩ := idx0 t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- Window 1's block at point t is rows 5000·t … 5000·t + 4999 of its array. -/
theorem blk0_1 (c : Dev nD) (t : Fin cfg0.N) (x : S5000x128.Idx) (i : S100000x128.Idx)
    (h0 : (i 0).val = t.val * 5000 + (x 0).val) (h1 : (i 1).val = (x 1).val) :
    (iblk0 V c 1 t : Vec Ideal S5000x128 .f32) x = (V c main_v20 : S100000x128.Idx → Elt Ideal .f32) i := by
  obtain ⟨e00, e01, e10, e11, e20, e21, e30, e31, e40, e41, e50, e51⟩ := idx0 t
  unfold iblk0
  rw [View.read_apply]
  show V c main_v20 _ = V c main_v20 _
  congr 1
  funext a
  apply Fin.ext
  match a with
  | ⟨0, _⟩ => show win0_1.index t (0 : Fin 2) * 5000 + 1 * (x 0).val = (i 0).val; omega
  | ⟨1, _⟩ => show win0_1.index t (1 : Fin 2) * 128 + 1 * (x 1).val = (i 1).val; omega

/-- Window 2's block at every point is its whole array. -/
theorem blk0_2 (c : Dev nD) (t : Fin cfg0.N) (x : S128x128.Idx) :
    (iblk0 V c 2 t : Vec Ideal S128x128 .f32) x = (V c main_arg7 : S128x128.Idx → Elt Ideal .f32) x := by
  obtain ⟨e00, e01, e10, e11, e20, e21, e30, e31, e40, e41, e50, e51⟩ := idx0 t
  unfold iblk0
  rw [View.read_apply]
  show V c main_arg7 _ = V c main_arg7 _
  congr 1
  funext a
  apply Fin.ext
  match a with
  | ⟨0, _⟩ => show win0_2.index t (0 : Fin 2) * 128 + 1 * (x 0).val = (x 0).val; omega
  | ⟨1, _⟩ => show win0_2.index t (1 : Fin 2) * 128 + 1 * (x 1).val = (x 1).val; omega

/-- Window 3's block at every point is its whole array. -/
theorem blk0_3 (c : Dev nD) (t : Fin cfg0.N) (x : S128x128.Idx) :
    (iblk0 V c 3 t : Vec Ideal S128x128 .f32) x = (V c main_arg8 : S128x128.Idx → Elt Ideal .f32) x := by
  obtain ⟨e00, e01, e10, e11, e20, e21, e30, e31, e40, e41, e50, e51⟩ := idx0 t
  unfold iblk0
  rw [View.read_apply]
  show V c main_arg8 _ = V c main_arg8 _
  congr 1
  funext a
  apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

/-- Window 4's block at every point is its whole array. -/
theorem blk0_4 (c : Dev nD) (t : Fin cfg0.N) (x : S1x128.Idx) :
    (iblk0 V c 4 t : Vec Ideal S1x128 .f32) x = (V c main_v21 : S1x128.Idx → Elt Ideal .f32) x := by
  obtain ⟨e00, e01, e10, e11, e20, e21, e30, e31, e40, e41, e50, e51⟩ := idx0 t
  unfold iblk0
  rw [View.read_apply]
  show V c main_v21 _ = V c main_v21 _
  congr 1
  funext a
  apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

/-- The array layer 1 leaves: its formula at every index, followed by the maximum with 0. -/
abbrev out0 (c : Dev nD) : S100000x128.Idx → EReal := fun i =>
    max (Cert.Sage.layerAt (fun (r : Fin 100000) (k : Fin 128) => V c main_arg0 (ix2 r k)) (fun (r : Fin 100000) (k : Fin 128) => V c main_v20 (ix2 r k))
      (fun (k : Fin 128) (j : Fin 128) => V c main_arg7 (ix2 k j)) (fun (k : Fin 128) (j : Fin 128) => V c main_arg8 (ix2 k j))
      (fun (j : Fin 128) => V c main_v21 (ix2 (0 : Fin 1) j)) ⟨(i 0).val, (i 0).isLt⟩ ⟨(i 1).val, (i 1).isLt⟩) 0

/-- What point t writes back is block t of that array: entry (p, j) of the body's result reads row p of the two
    input blocks, which are rows 5000·t + p of the feature arrays, and the weight and bias windows whole. -/
theorem flushed0 (c : Dev nD) (t : Fin cfg0.N) :
    (dat0 (F := Ideal) V c).flushed 5 t = ((cfg0.win 5).blk t).view.read (Elt Ideal) (out0 V c) := by
  show (cfg0.win 5).cut (grid0.coords t) ((dat0 V c).after 5 t) = _
  rw [after0_5]
  unfold out0_5
  rw [View.canon_unit_zero zeroOff]
  simp only [View.ld_unit_zero (S := S5000x128) zeroOff, View.ld_unit_zero (S := S128x128) zeroOff, View.ld_unit_zero (S := S1x128) zeroOff]
  obtain ⟨e00, e01, e10, e11, e20, e21, e30, e31, e40, e41, e50, e51⟩ := idx0 t
  funext y
  show k0_pay1 (iblk0 V c 0 t) (iblk0 V c 1 t) (iblk0 V c 2 t) (iblk0 V c 3 t) (iblk0 V c 4 t) y = out0 V c (((cfg0.win 5).blk t).view.emb y)
  refine (pay0_at _ _ _ _ _ y).trans ?_
  have E0 : ((((cfg0.win 5).blk t).view.emb y) 0).val = t.val * 5000 + (y 0).val := by
    show win0_5.index t (0 : Fin 2) * 5000 + 1 * (y 0).val = _; omega
  have E1 : ((((cfg0.win 5).blk t).view.emb y) 1).val = (y 1).val := by
    show win0_5.index t (1 : Fin 2) * 128 + 1 * (y 1).val = _; omega
  refine congrArg (fun z : EReal => max z 0) ?_
  exact layerAt_congr
    (fun k => blk0_0 V c t _ _ E0 rfl) (fun k => blk0_1 V c t _ _ E0 rfl)
    (fun k => (blk0_2 V c t _).trans (congrArg (V c main_arg7 : S128x128.Idx → Elt Ideal .f32) (funext fun a => Fin.ext (by
      match a with
      | ⟨0, _⟩ => rfl
      | ⟨1, _⟩ => exact E1.symm))))
    (fun k => (blk0_3 V c t _).trans (congrArg (V c main_arg8 : S128x128.Idx → Elt Ideal .f32) (funext fun a => Fin.ext (by
      match a with
      | ⟨0, _⟩ => rfl
      | ⟨1, _⟩ => exact E1.symm))))
    ((blk0_4 V c t _).trans (congrArg (V c main_v21 : S1x128.Idx → Elt Ideal .f32) (funext fun a => Fin.ext (by
      match a with
      | ⟨0, _⟩ => rfl
      | ⟨1, _⟩ => exact E1.symm))))

/-- An index of the array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Row r of the array is in the block of point r / 5000: the 20 blocks of 5000 rows tile the 100000 rows. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_5 t, ?_⟩
  obtain ⟨e00, e01, e10, e11, e20, e21, e30, e31, e40, e41, e50, e51⟩ := idx0 t
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The array after layer 1's region, for any contents at its entry. -/
theorem combine0_array (c : Dev nD) :
    (dat0 (F := Ideal) V c).arrAt 5 cfg0.N
      = fun i => max (Cert.Sage.layerAt (fun (r : Fin 100000) (k : Fin 128) => V c main_arg0 (ix2 r k)) (fun (r : Fin 100000) (k : Fin 128) => V c main_v20 (ix2 r k))
      (fun (k : Fin 128) (j : Fin 128) => V c main_arg7 (ix2 k j)) (fun (k : Fin 128) (j : Fin 128) => V c main_arg8 (ix2 k j))
      (fun (j : Fin 128) => V c main_v21 (ix2 (0 : Fin 1) j)) ⟨(i 0).val, (i 0).isLt⟩ ⟨(i 1).val, (i 1).isLt⟩) 0 :=
  (dat0 V c).arrAt_eq_of_cover 5 (out0 V c) (fun t _ => flushed0 V c t) (cover0)

end Region0

/-- Entry (p, j) of layer 2's body: the layer's formula on row p of the two input blocks, followed by the
    maximum with 0. -/
theorem pay1_apply (v0 v3 : Vec Ideal S5000x128 .f32) (v6 v8 : Vec Ideal S128x128 .f32) (v13 : Vec Ideal S1x128 .f32)
    (p : Fin 5000) (j : Fin 128) :
    k1_pay1 (F := Ideal) v0 v3 v6 v8 v13 (ix2 p j)
      = max (Cert.Sage.layerAt (fun (r : Fin 5000) (k : Fin 128) => v0 (ix2 r k)) (fun (r : Fin 5000) (k : Fin 128) => v3 (ix2 r k))
          (fun (k : Fin 128) (j : Fin 128) => v6 (ix2 k j)) (fun (k : Fin 128) (j : Fin 128) => v8 (ix2 k j))
          (fun (j : Fin 128) => v13 (ix2 (0 : Fin 1) j)) p j) 0 := by
  unfold k1_pay1
  rw [maximumf_apply, addf_apply, addf_apply, mm128_apply, mm128_apply, biasRow128_apply, broadcast_apply]
  simp only [truncf_apply, shapeCast_self]
  show max _ (Ideal.ofBits .f32 0x00000000#32) = _
  rw [Ideal.ofBits_zero_f32]
  rfl

/-- The same at an index of the block given by its two coordinates. -/
theorem pay1_at (v0 v3 : Vec Ideal S5000x128 .f32) (v6 v8 : Vec Ideal S128x128 .f32) (v13 : Vec Ideal S1x128 .f32)
    (y : S5000x128.Idx) :
    k1_pay1 (F := Ideal) v0 v3 v6 v8 v13 y
      = max (Cert.Sage.layerAt (fun (r : Fin 5000) (k : Fin 128) => v0 (ix2 r k)) (fun (r : Fin 5000) (k : Fin 128) => v3 (ix2 r k))
          (fun (k : Fin 128) (j : Fin 128) => v6 (ix2 k j)) (fun (k : Fin 128) (j : Fin 128) => v8 (ix2 k j))
          (fun (j : Fin 128) => v13 (ix2 (0 : Fin 1) j)) ⟨(y 0).val, (y 0).isLt⟩ ⟨(y 1).val, (y 1).isLt⟩) 0 := by
  obtain ⟨p, j, rfl⟩ : ∃ (p : Fin 5000) (j : Fin 128), y = ix2 p j := ⟨y 0, y 1, eq_ix2 y⟩
  exact pay1_apply v0 v3 v6 v8 v13 p j

/-! ### Layer 2: from the blocks to the array -/

section Region1
variable (V : (c : Dev nD) → (b : Ref sig .tc) → Buf (Elt Ideal) ((c : Thread nD τ).loc b))

/-- The index maps over the 20 points: a row-blocked window sits at block (t, 0), a whole-array window at (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000·t … 5000·t + 4999 of its array. -/
theorem blk1_0 (c : Dev nD) (t : Fin cfg1.N) (x : S5000x128.Idx) (i : S100000x128.Idx)
    (h0 : (i 0).val = t.val * 5000 + (x 0).val) (h1 : (i 1).val = (x 1).val) :
    (iblk1 V c 0 t : Vec Ideal S5000x128 .f32) x = (V c main_v22 : S100000x128.Idx → Elt Ideal .f32) i := by
  obtain ⟨e00, e01, e10, e11, e20, e21, e30, e31, e40, e41, e50, e51⟩ := idx1 t
  unfold iblk1
  rw [View.read_apply]
  show V c main_v22 _ = V c main_v22 _
  congr 1
  funext a
  apply Fin.ext
  match a with
  | ⟨0, _⟩ => show win1_0.index t (0 : Fin 2) * 5000 + 1 * (x 0).val = (i 0).val; omega
  | ⟨1, _⟩ => show win1_0.index t (1 : Fin 2) * 128 + 1 * (x 1).val = (i 1).val; omega

/-- Window 1's block at point t is rows 5000·t … 5000·t + 4999 of its array. -/
theorem blk1_1 (c : Dev nD) (t : Fin cfg1.N) (x : S5000x128.Idx) (i : S100000x128.Idx)
    (h0 : (i 0).val = t.val * 5000 + (x 0).val) (h1 : (i 1).val = (x 1).val) :
    (iblk1 V c 1 t : Vec Ideal S5000x128 .f32) x = (V c main_v35 : S100000x128.Idx → Elt Ideal .f32) i := by
  obtain ⟨e00, e01, e10, e11, e20, e21, e30, e31, e40, e41, e50, e51⟩ := idx1 t
  unfold iblk1
  rw [View.read_apply]
  show V c main_v35 _ = V c main_v35 _
  congr 1
  funext a
  apply Fin.ext
  match a with
  | ⟨0, _⟩ => show win1_1.index t (0 : Fin 2) * 5000 + 1 * (x 0).val = (i 0).val; omega
  | ⟨1, _⟩ => show win1_1.index t (1 : Fin 2) * 128 + 1 * (x 1).val = (i 1).val; omega

/-- Window 2's block at every point is its whole array. -/
theorem blk1_2 (c : Dev nD) (t : Fin cfg1.N) (x : S128x128.Idx) :
    (iblk1 V c 2 t : Vec Ideal S128x128 .f32) x = (V c main_arg10 : S128x128.Idx → Elt Ideal .f32) x := by
  obtain ⟨e00, e01, e10, e11, e20, e21, e30, e31, e40, e41, e50, e51⟩ := idx1 t
  unfold iblk1
  rw [View.read_apply]
  show V c main_arg10 _ = V c main_arg10 _
  congr 1
  funext a
  apply Fin.ext
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- Window 3's block at every point is its whole array. -/
theorem blk1_3 (c : Dev nD) (t : Fin cfg1.N) (x : S128x128.Idx) :
    (iblk1 V c 3 t : Vec Ideal S128x128 .f32) x = (V c main_arg11 : S128x128.Idx → Elt Ideal .f32) x := by
  obtain ⟨e00, e01, e10, e11, e20, e21, e30, e31, e40, e41, e50, e51⟩ := idx1 t
  unfold iblk1
  rw [View.read_apply]
  show V c main_arg11 _ = V c main_arg11 _
  congr 1
  funext a
  apply Fin.ext
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- Window 4's block at every point is its whole array. -/
theorem blk1_4 (c : Dev nD) (t : Fin cfg1.N) (x : S1x128.Idx) :
    (iblk1 V c 4 t : Vec Ideal S1x128 .f32) x = (V c main_v36 : S1x128.Idx → Elt Ideal .f32) x := by
  obtain ⟨e00, e01, e10, e11, e20, e21, e30, e31, e40, e41, e50, e51⟩ := idx1 t
  unfold iblk1
  rw [View.read_apply]
  show V c main_v36 _ = V c main_v36 _
  congr 1
  funext a
  apply Fin.ext
  match a with
  | ⟨0, _⟩ => show win1_4.index t (0 : Fin 2) * 1 + 1 * (x 0).val = (x 0).val; omega
  | ⟨1, _⟩ => show win1_4.index t (1 : Fin 2) * 128 + 1 * (x 1).val = (x 1).val; omega

/-- The array layer 2 leaves: its formula at every index, followed by the maximum with 0. -/
abbrev out1 (c : Dev nD) : S100000x128.Idx → EReal := fun i =>
    max (Cert.Sage.layerAt (fun (r : Fin 100000) (k : Fin 128) => V c main_v22 (ix2 r k)) (fun (r : Fin 100000) (k : Fin 128) => V c main_v35 (ix2 r k))
      (fun (k : Fin 128) (j : Fin 128) => V c main_arg10 (ix2 k j)) (fun (k : Fin 128) (j : Fin 128) => V c main_arg11 (ix2 k j))
      (fun (j : Fin 128) => V c main_v36 (ix2 (0 : Fin 1) j)) ⟨(i 0).val, (i 0).isLt⟩ ⟨(i 1).val, (i 1).isLt⟩) 0

/-- What point t writes back is block t of that array: entry (p, j) of the body's result reads row p of the two
    input blocks, which are rows 5000·t + p of the feature arrays, and the weight and bias windows whole. -/
theorem flushed1 (c : Dev nD) (t : Fin cfg1.N) :
    (dat1 (F := Ideal) V c).flushed 5 t = ((cfg1.win 5).blk t).view.read (Elt Ideal) (out1 V c) := by
  show (cfg1.win 5).cut (grid1.coords t) ((dat1 V c).after 5 t) = _
  rw [after1_5]
  unfold out1_5
  rw [View.canon_unit_zero zeroOff]
  simp only [View.ld_unit_zero (S := S5000x128) zeroOff, View.ld_unit_zero (S := S128x128) zeroOff, View.ld_unit_zero (S := S1x128) zeroOff]
  obtain ⟨e00, e01, e10, e11, e20, e21, e30, e31, e40, e41, e50, e51⟩ := idx1 t
  funext y
  show k1_pay1 (iblk1 V c 0 t) (iblk1 V c 1 t) (iblk1 V c 2 t) (iblk1 V c 3 t) (iblk1 V c 4 t) y = out1 V c (((cfg1.win 5).blk t).view.emb y)
  refine (pay1_at _ _ _ _ _ y).trans ?_
  have E0 : ((((cfg1.win 5).blk t).view.emb y) 0).val = t.val * 5000 + (y 0).val := by
    show win1_5.index t (0 : Fin 2) * 5000 + 1 * (y 0).val = _; omega
  have E1 : ((((cfg1.win 5).blk t).view.emb y) 1).val = (y 1).val := by
    show win1_5.index t (1 : Fin 2) * 128 + 1 * (y 1).val = _; omega
  refine congrArg (fun z : EReal => max z 0) ?_
  exact layerAt_congr
    (fun k => blk1_0 V c t _ _ E0 rfl) (fun k => blk1_1 V c t _ _ E0 rfl)
    (fun k => (blk1_2 V c t _).trans (congrArg (V c main_arg10 : S128x128.Idx → Elt Ideal .f32) (funext fun a => Fin.ext (by
      match a with
      | ⟨0, _⟩ => rfl
      | ⟨1, _⟩ => exact E1.symm))))
    (fun k => (blk1_3 V c t _).trans (congrArg (V c main_arg11 : S128x128.Idx → Elt Ideal .f32) (funext fun a => Fin.ext (by
      match a with
      | ⟨0, _⟩ => rfl
      | ⟨1, _⟩ => exact E1.symm))))
    ((blk1_4 V c t _).trans (congrArg (V c main_v36 : S1x128.Idx → Elt Ideal .f32) (funext fun a => Fin.ext (by
      match a with
      | ⟨0, _⟩ => rfl
      | ⟨1, _⟩ => exact E1.symm))))

/-- An index of the array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Row r of the array is in the block of point r / 5000: the 20 blocks of 5000 rows tile the 100000 rows. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_5 t, ?_⟩
  obtain ⟨e00, e01, e10, e11, e20, e21, e30, e31, e40, e41, e50, e51⟩ := idx1 t
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The array after layer 2's region, for any contents at its entry. -/
theorem combine1_array (c : Dev nD) :
    (dat1 (F := Ideal) V c).arrAt 5 cfg1.N
      = fun i => max (Cert.Sage.layerAt (fun (r : Fin 100000) (k : Fin 128) => V c main_v22 (ix2 r k)) (fun (r : Fin 100000) (k : Fin 128) => V c main_v35 (ix2 r k))
      (fun (k : Fin 128) (j : Fin 128) => V c main_arg10 (ix2 k j)) (fun (k : Fin 128) (j : Fin 128) => V c main_arg11 (ix2 k j))
      (fun (j : Fin 128) => V c main_v36 (ix2 (0 : Fin 1) j)) ⟨(i 0).val, (i 0).isLt⟩ ⟨(i 1).val, (i 1).isLt⟩) 0 :=
  (dat1 V c).arrAt_eq_of_cover 5 (out1 V c) (fun t _ => flushed1 V c t) (cover1)

end Region1

/-- Entry (p, j) of layer 3's body: the layer's formula on row p of the two input blocks. -/
theorem pay2_apply (v0 v3 : Vec Ideal S5000x128 .f32) (v6 v8 : Vec Ideal S128x16 .f32) (v13 : Vec Ideal S1x16 .f32)
    (p : Fin 5000) (j : Fin 16) :
    k2_pay1 (F := Ideal) v0 v3 v6 v8 v13 (ix2 p j)
      = Cert.Sage.layerAt (fun (r : Fin 5000) (k : Fin 128) => v0 (ix2 r k)) (fun (r : Fin 5000) (k : Fin 128) => v3 (ix2 r k))
          (fun (k : Fin 128) (j : Fin 16) => v6 (ix2 k j)) (fun (k : Fin 128) (j : Fin 16) => v8 (ix2 k j))
          (fun (j : Fin 16) => v13 (ix2 (0 : Fin 1) j)) p j := by
  unfold k2_pay1
  rw [addf_apply, addf_apply, mm16_apply, mm16_apply, biasRow16_apply]
  simp only [truncf_apply, shapeCast_self]
  rfl

/-- The same at an index of the block given by its two coordinates. -/
theorem pay2_at (v0 v3 : Vec Ideal S5000x128 .f32) (v6 v8 : Vec Ideal S128x16 .f32) (v13 : Vec Ideal S1x16 .f32)
    (y : S5000x16.Idx) :
    k2_pay1 (F := Ideal) v0 v3 v6 v8 v13 y
      = Cert.Sage.layerAt (fun (r : Fin 5000) (k : Fin 128) => v0 (ix2 r k)) (fun (r : Fin 5000) (k : Fin 128) => v3 (ix2 r k))
          (fun (k : Fin 128) (j : Fin 16) => v6 (ix2 k j)) (fun (k : Fin 128) (j : Fin 16) => v8 (ix2 k j))
          (fun (j : Fin 16) => v13 (ix2 (0 : Fin 1) j)) ⟨(y 0).val, (y 0).isLt⟩ ⟨(y 1).val, (y 1).isLt⟩ := by
  obtain ⟨p, j, rfl⟩ : ∃ (p : Fin 5000) (j : Fin 16), y = ix2 p j := ⟨y 0, y 1, eq_ix2 y⟩
  exact pay2_apply v0 v3 v6 v8 v13 p j

/-! ### Layer 3: from the blocks to the array -/

section Region2
variable (V : (c : Dev nD) → (b : Ref sig .tc) → Buf (Elt Ideal) ((c : Thread nD τ).loc b))

/-- The index maps over the 20 points: a row-blocked window sits at block (t, 0), a whole-array window at (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t is rows 5000·t … 5000·t + 4999 of its array. -/
theorem blk2_0 (c : Dev nD) (t : Fin cfg2.N) (x : S5000x128.Idx) (i : S100000x128.Idx)
    (h0 : (i 0).val = t.val * 5000 + (x 0).val) (h1 : (i 1).val = (x 1).val) :
    (iblk2 V c 0 t : Vec Ideal S5000x128 .f32) x = (V c main_v37 : S100000x128.Idx → Elt Ideal .f32) i := by
  obtain ⟨e00, e01, e10, e11, e20, e21, e30, e31, e40, e41, e50, e51⟩ := idx2 t
  unfold iblk2
  rw [View.read_apply]
  show V c main_v37 _ = V c main_v37 _
  congr 1
  funext a
  apply Fin.ext
  match a with
  | ⟨0, _⟩ => show win2_0.index t (0 : Fin 2) * 5000 + 1 * (x 0).val = (i 0).val; omega
  | ⟨1, _⟩ => show win2_0.index t (1 : Fin 2) * 128 + 1 * (x 1).val = (i 1).val; omega

/-- Window 1's block at point t is rows 5000·t … 5000·t + 4999 of its array. -/
theorem blk2_1 (c : Dev nD) (t : Fin cfg2.N) (x : S5000x128.Idx) (i : S100000x128.Idx)
    (h0 : (i 0).val = t.val * 5000 + (x 0).val) (h1 : (i 1).val = (x 1).val) :
    (iblk2 V c 1 t : Vec Ideal S5000x128 .f32) x = (V c main_v50 : S100000x128.Idx → Elt Ideal .f32) i := by
  obtain ⟨e00, e01, e10, e11, e20, e21, e30, e31, e40, e41, e50, e51⟩ := idx2 t
  unfold iblk2
  rw [View.read_apply]
  show V c main_v50 _ = V c main_v50 _
  congr 1
  funext a
  apply Fin.ext
  match a with
  | ⟨0, _⟩ => show win2_1.index t (0 : Fin 2) * 5000 + 1 * (x 0).val = (i 0).val; omega
  | ⟨1, _⟩ => show win2_1.index t (1 : Fin 2) * 128 + 1 * (x 1).val = (i 1).val; omega

/-- Window 2's block at every point is its whole array. -/
theorem blk2_2 (c : Dev nD) (t : Fin cfg2.N) (x : S128x16.Idx) :
    (iblk2 V c 2 t : Vec Ideal S128x16 .f32) x = (V c main_arg13 : S128x16.Idx → Elt Ideal .f32) x := by
  obtain ⟨e00, e01, e10, e11, e20, e21, e30, e31, e40, e41, e50, e51⟩ := idx2 t
  unfold iblk2
  rw [View.read_apply]
  show V c main_arg13 _ = V c main_arg13 _
  congr 1
  funext a
  apply Fin.ext
  match a with
  | ⟨0, _⟩ => show win2_2.index t (0 : Fin 2) * 128 + 1 * (x 0).val = (x 0).val; omega
  | ⟨1, _⟩ => show win2_2.index t (1 : Fin 2) * 16 + 1 * (x 1).val = (x 1).val; omega

/-- Window 3's block at every point is its whole array. -/
theorem blk2_3 (c : Dev nD) (t : Fin cfg2.N) (x : S128x16.Idx) :
    (iblk2 V c 3 t : Vec Ideal S128x16 .f32) x = (V c main_arg14 : S128x16.Idx → Elt Ideal .f32) x := by
  obtain ⟨e00, e01, e10, e11, e20, e21, e30, e31, e40, e41, e50, e51⟩ := idx2 t
  unfold iblk2
  rw [View.read_apply]
  show V c main_arg14 _ = V c main_arg14 _
  congr 1
  funext a
  apply Fin.ext
  match a with
  | ⟨0, _⟩ => show win2_3.index t (0 : Fin 2) * 128 + 1 * (x 0).val = (x 0).val; omega
  | ⟨1, _⟩ => show win2_3.index t (1 : Fin 2) * 16 + 1 * (x 1).val = (x 1).val; omega

/-- Window 4's block at every point is its whole array. -/
theorem blk2_4 (c : Dev nD) (t : Fin cfg2.N) (x : S1x16.Idx) :
    (iblk2 V c 4 t : Vec Ideal S1x16 .f32) x = (V c main_v51 : S1x16.Idx → Elt Ideal .f32) x := by
  obtain ⟨e00, e01, e10, e11, e20, e21, e30, e31, e40, e41, e50, e51⟩ := idx2 t
  unfold iblk2
  rw [View.read_apply]
  show V c main_v51 _ = V c main_v51 _
  congr 1
  funext a
  apply Fin.ext
  match a with
  | ⟨0, _⟩ => show win2_4.index t (0 : Fin 2) * 1 + 1 * (x 0).val = (x 0).val; omega
  | ⟨1, _⟩ => show win2_4.index t (1 : Fin 2) * 16 + 1 * (x 1).val = (x 1).val; omega

/-- The array layer 3 leaves: its formula at every index. -/
abbrev out2 (c : Dev nD) : S100000x16.Idx → EReal := fun i =>
    Cert.Sage.layerAt (fun (r : Fin 100000) (k : Fin 128) => V c main_v37 (ix2 r k)) (fun (r : Fin 100000) (k : Fin 128) => V c main_v50 (ix2 r k))
      (fun (k : Fin 128) (j : Fin 16) => V c main_arg13 (ix2 k j)) (fun (k : Fin 128) (j : Fin 16) => V c main_arg14 (ix2 k j))
      (fun (j : Fin 16) => V c main_v51 (ix2 (0 : Fin 1) j)) ⟨(i 0).val, (i 0).isLt⟩ ⟨(i 1).val, (i 1).isLt⟩

/-- What point t writes back is block t of that array: entry (p, j) of the body's result reads row p of the two
    input blocks, which are rows 5000·t + p of the feature arrays, and the weight and bias windows whole. -/
theorem flushed2 (c : Dev nD) (t : Fin cfg2.N) :
    (dat2 (F := Ideal) V c).flushed 5 t = ((cfg2.win 5).blk t).view.read (Elt Ideal) (out2 V c) := by
  show (cfg2.win 5).cut (grid2.coords t) ((dat2 V c).after 5 t) = _
  rw [after2_5]
  unfold out2_5
  rw [View.canon_unit_zero zeroOff]
  simp only [View.ld_unit_zero (S := S5000x128) zeroOff, View.ld_unit_zero (S := S128x16) zeroOff, View.ld_unit_zero (S := S1x16) zeroOff]
  obtain ⟨e00, e01, e10, e11, e20, e21, e30, e31, e40, e41, e50, e51⟩ := idx2 t
  funext y
  show k2_pay1 (iblk2 V c 0 t) (iblk2 V c 1 t) (iblk2 V c 2 t) (iblk2 V c 3 t) (iblk2 V c 4 t) y = out2 V c (((cfg2.win 5).blk t).view.emb y)
  refine (pay2_at _ _ _ _ _ y).trans ?_
  have E0 : ((((cfg2.win 5).blk t).view.emb y) 0).val = t.val * 5000 + (y 0).val := by
    show win2_5.index t (0 : Fin 2) * 5000 + 1 * (y 0).val = _; omega
  have E1 : ((((cfg2.win 5).blk t).view.emb y) 1).val = (y 1).val := by
    show win2_5.index t (1 : Fin 2) * 16 + 1 * (y 1).val = _; omega
  exact layerAt_congr
    (fun k => blk2_0 V c t _ _ E0 rfl) (fun k => blk2_1 V c t _ _ E0 rfl)
    (fun k => (blk2_2 V c t _).trans (congrArg (V c main_arg13 : S128x16.Idx → Elt Ideal .f32) (funext fun a => Fin.ext (by
      match a with
      | ⟨0, _⟩ => rfl
      | ⟨1, _⟩ => exact E1.symm))))
    (fun k => (blk2_3 V c t _).trans (congrArg (V c main_arg14 : S128x16.Idx → Elt Ideal .f32) (funext fun a => Fin.ext (by
      match a with
      | ⟨0, _⟩ => rfl
      | ⟨1, _⟩ => exact E1.symm))))
    ((blk2_4 V c t _).trans (congrArg (V c main_v51 : S1x16.Idx → Elt Ideal .f32) (funext fun a => Fin.ext (by
      match a with
      | ⟨0, _⟩ => rfl
      | ⟨1, _⟩ => exact E1.symm))))

/-- An index of the array is in point t's block iff each coordinate is in the block's range on its axis. -/
theorem mem_blk2 (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v52).slice (win2_5.rect t)).set ↔ _
  rw [View.set_slice_whole, Rect.mem_set_unit]
  exact Iff.rfl

/-- Row r of the array is in the block of point r / 5000: the 20 blocks of 5000 rows tile the 100000 rows. -/
theorem cover2 (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_5 t, ?_⟩
  obtain ⟨e00, e01, e10, e11, e20, e21, e30, e31, e40, e41, e50, e51⟩ := idx2 t
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 16 ≤ (i 1).val ∧ (i 1).val < win2_5.index t (1 : Fin 2) * 16 + 16; omega

/-- The array after layer 3's region, for any contents at its entry. -/
theorem combine2_array (c : Dev nD) :
    (dat2 (F := Ideal) V c).arrAt 5 cfg2.N
      = fun i => Cert.Sage.layerAt (fun (r : Fin 100000) (k : Fin 128) => V c main_v37 (ix2 r k)) (fun (r : Fin 100000) (k : Fin 128) => V c main_v50 (ix2 r k))
      (fun (k : Fin 128) (j : Fin 16) => V c main_arg13 (ix2 k j)) (fun (k : Fin 128) (j : Fin 16) => V c main_arg14 (ix2 k j))
      (fun (j : Fin 16) => V c main_v51 (ix2 (0 : Fin 1) j)) ⟨(i 0).val, (i 0).isLt⟩ ⟨(i 1).val, (i 1).isLt⟩ :=
  (dat2 V c).arrAt_eq_of_cover 5 (out2 V c) (fun t _ => flushed2 V c t) (cover2)

end Region2

end Kernel

/-! ## The reference side -/

section Reference

open Cert.ReferenceIdeal Cert.ReferenceIdeal.Gen

/-! ### A layer with 128 output features -/

/-- The left operand's index at output (r, j) and contraction position q is (r, q): the output's row, and the
    position's one coordinate on the contracted axis. -/
theorem refL128 (r : Fin 100000) (j : Fin 128) (q : dot_S100000x128_S128x128_S100000x128_1_0_0_1_n_n.contr.Idx) :
    dot_S100000x128_S128x128_S100000x128_1_0_0_1_n_n.lhsIdx (ix2 r j) q = ix2 r (contrEquiv1 dot_S100000x128_S128x128_S100000x128_1_0_0_1_n_n 128 rfl rfl q) := by
  funext a
  refine Fin.ext ?_
  match a with
  | ⟨0, _⟩ => rfl
  | ⟨1, _⟩ => exact dot_S100000x128_S128x128_S100000x128_1_0_0_1_n_n.lhsIdx_val_of_single rfl (ix2 r j) q

/-- The right operand's is (q, j). -/
theorem refR128 (r : Fin 100000) (j : Fin 128) (q : dot_S100000x128_S128x128_S100000x128_1_0_0_1_n_n.contr.Idx) :
    dot_S100000x128_S128x128_S100000x128_1_0_0_1_n_n.rhsIdx (ix2 r j) q = ix2 (contrEquiv1 dot_S100000x128_S128x128_S100000x128_1_0_0_1_n_n 128 rfl rfl q) j := by
  funext a
  refine Fin.ext ?_
  match a with
  | ⟨0, _⟩ => exact dot_S100000x128_S128x128_S100000x128_1_0_0_1_n_n.rhsIdx_val_of_single rfl (ix2 r j) q
  | ⟨1, _⟩ => rfl

/-- So the host's product at (r, j) is the sum over the 128 features. -/
theorem refDot128_apply (x : FVec Ideal S100000x128 .f32) (w : FVec Ideal S128x128 .f32) (r : Fin 100000) (j : Fin 128) :
    Host.dotGeneral dot_S100000x128_S128x128_S100000x128_1_0_0_1_n_n none x w (ix2 r j) = ∑ k : Fin 128, x (ix2 r k) * w (ix2 k j) := by
  show FloatOps.dotGeneral dot_S100000x128_S128x128_S100000x128_1_0_0_1_n_n none .single x w (ix2 r j) = _
  rw [Ideal.dotGeneral_apply]
  exact Fintype.sum_equiv (contrEquiv1 dot_S100000x128_S128x128_S100000x128_1_0_0_1_n_n 128 rfl rfl) _ _ fun q => by rw [refL128, refR128]

/-- The bias, made a row and then repeated down the 100000 rows, at (r, j) is its entry j. -/
theorem refBias128_apply (b : FVec Ideal S128 .f32) (r : Fin 100000) (j : Fin 128) :
    broadcastInDim S100000x128 ![0, 1] bcast_S1x128_S100000x128_0_1 (broadcastInDim S1x128 ![1] bcast_S128_S1x128_1 b) (ix2 r j) = b (ix1 j) := by
  refine (broadcastInDim_apply ![0, 1] bcast_S1x128_S100000x128_0_1 _ (ix2 r j) (ix2 (0 : Fin 1) j) fun a => ?_).trans
    (broadcastInDim_apply ![1] bcast_S128_S1x128_1 b (ix2 (0 : Fin 1) j) (ix1 j) fun a => ?_)
  · match a with
    | ⟨0, _⟩ => rfl
    | ⟨1, _⟩ => rfl
  · match a with
    | ⟨0, _⟩ => rfl

/-- The zero the maximum is taken against, repeated over the array, is the extended real 0 at every index. -/
theorem refZero128_apply (i : S100000x128.Idx) :
    broadcastInDim S100000x128 ![] bcast_S_S100000x128 (constant (F := Ideal) S_ .f32 0x00000000#32) i = (0 : EReal) := by
  refine (broadcastInDim_apply ![] bcast_S_S100000x128 _ i ix0 fun a => a.elim0).trans ?_
  rw [constant_apply, Ideal.ofBits_zero_f32]

/-- The reference's layer: two products, two sums, the broadcast bias and the maximum with the broadcast zero are the layer's formula at
    every index. -/
theorem layerRef128 (h hn : FVec Ideal S100000x128 .f32) (ws wn : FVec Ideal S128x128 .f32) (b : FVec Ideal S128 .f32) :
    maximumf (addf (addf (Host.dotGeneral dot_S100000x128_S128x128_S100000x128_1_0_0_1_n_n none h ws) (Host.dotGeneral dot_S100000x128_S128x128_S100000x128_1_0_0_1_n_n none hn wn))
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
      = fun i => max (Cert.Sage.layerAt (fun (r : Fin 100000) (k : Fin 128) => h (ix2 r k)) (fun (r : Fin 100000) (k : Fin 128) => hn (ix2 r k))
        (fun (k : Fin 128) (j : Fin 128) => ws (ix2 k j)) (fun (k : Fin 128) (j : Fin 128) => wn (ix2 k j))
        (fun (j : Fin 128) => b (ix1 j)) ⟨(i 0).val, (i 0).isLt⟩ ⟨(i 1).val, (i 1).isLt⟩) 0 := by
  funext i
  obtain ⟨r, j, rfl⟩ : ∃ (r : Fin 100000) (j : Fin 128), i = ix2 r j := ⟨i 0, i 1, eq_ix2 i⟩
  rw [maximumf_apply, addf_apply, addf_apply, refDot128_apply, refDot128_apply, refBias128_apply, refZero128_apply]
  rfl

/-! ### A layer with 16 output features -/

/-- The left operand's index at output (r, j) and contraction position q is (r, q): the output's row, and the
    position's one coordinate on the contracted axis. -/
theorem refL16 (r : Fin 100000) (j : Fin 16) (q : dot_S100000x128_S128x16_S100000x16_1_0_0_1_n_n.contr.Idx) :
    dot_S100000x128_S128x16_S100000x16_1_0_0_1_n_n.lhsIdx (ix2 r j) q = ix2 r (contrEquiv1 dot_S100000x128_S128x16_S100000x16_1_0_0_1_n_n 128 rfl rfl q) := by
  funext a
  refine Fin.ext ?_
  match a with
  | ⟨0, _⟩ => rfl
  | ⟨1, _⟩ => exact dot_S100000x128_S128x16_S100000x16_1_0_0_1_n_n.lhsIdx_val_of_single rfl (ix2 r j) q

/-- The right operand's is (q, j). -/
theorem refR16 (r : Fin 100000) (j : Fin 16) (q : dot_S100000x128_S128x16_S100000x16_1_0_0_1_n_n.contr.Idx) :
    dot_S100000x128_S128x16_S100000x16_1_0_0_1_n_n.rhsIdx (ix2 r j) q = ix2 (contrEquiv1 dot_S100000x128_S128x16_S100000x16_1_0_0_1_n_n 128 rfl rfl q) j := by
  funext a
  refine Fin.ext ?_
  match a with
  | ⟨0, _⟩ => exact dot_S100000x128_S128x16_S100000x16_1_0_0_1_n_n.rhsIdx_val_of_single rfl (ix2 r j) q
  | ⟨1, _⟩ => rfl

/-- So the host's product at (r, j) is the sum over the 128 features. -/
theorem refDot16_apply (x : FVec Ideal S100000x128 .f32) (w : FVec Ideal S128x16 .f32) (r : Fin 100000) (j : Fin 16) :
    Host.dotGeneral dot_S100000x128_S128x16_S100000x16_1_0_0_1_n_n none x w (ix2 r j) = ∑ k : Fin 128, x (ix2 r k) * w (ix2 k j) := by
  show FloatOps.dotGeneral dot_S100000x128_S128x16_S100000x16_1_0_0_1_n_n none .single x w (ix2 r j) = _
  rw [Ideal.dotGeneral_apply]
  exact Fintype.sum_equiv (contrEquiv1 dot_S100000x128_S128x16_S100000x16_1_0_0_1_n_n 128 rfl rfl) _ _ fun q => by rw [refL16, refR16]

/-- The bias, made a row and then repeated down the 100000 rows, at (r, j) is its entry j. -/
theorem refBias16_apply (b : FVec Ideal S16 .f32) (r : Fin 100000) (j : Fin 16) :
    broadcastInDim S100000x16 ![0, 1] bcast_S1x16_S100000x16_0_1 (broadcastInDim S1x16 ![1] bcast_S16_S1x16_1 b) (ix2 r j) = b (ix1 j) := by
  refine (broadcastInDim_apply ![0, 1] bcast_S1x16_S100000x16_0_1 _ (ix2 r j) (ix2 (0 : Fin 1) j) fun a => ?_).trans
    (broadcastInDim_apply ![1] bcast_S16_S1x16_1 b (ix2 (0 : Fin 1) j) (ix1 j) fun a => ?_)
  · match a with
    | ⟨0, _⟩ => rfl
    | ⟨1, _⟩ => rfl
  · match a with
    | ⟨0, _⟩ => rfl

/-- The reference's layer: two products, two sums, the broadcast bias are the layer's formula at
    every index. -/
theorem layerRef16 (h hn : FVec Ideal S100000x128 .f32) (ws wn : FVec Ideal S128x16 .f32) (b : FVec Ideal S16 .f32) :
    addf (addf (Host.dotGeneral dot_S100000x128_S128x16_S100000x16_1_0_0_1_n_n none h ws) (Host.dotGeneral dot_S100000x128_S128x16_S100000x16_1_0_0_1_n_n none hn wn))
        (broadcastInDim S100000x16 ![0, 1] bcast_S1x16_S100000x16_0_1 (broadcastInDim S1x16 ![1] bcast_S16_S1x16_1 b))
      = fun i => Cert.Sage.layerAt (fun (r : Fin 100000) (k : Fin 128) => h (ix2 r k)) (fun (r : Fin 100000) (k : Fin 128) => hn (ix2 r k))
        (fun (k : Fin 128) (j : Fin 16) => ws (ix2 k j)) (fun (k : Fin 128) (j : Fin 16) => wn (ix2 k j))
        (fun (j : Fin 16) => b (ix1 j)) ⟨(i 0).val, (i 0).isLt⟩ ⟨(i 1).val, (i 1).isLt⟩ := by
  funext i
  obtain ⟨r, j, rfl⟩ : ∃ (r : Fin 100000) (j : Fin 16), i = ix2 r j := ⟨i 0, i 1, eq_ix2 i⟩
  rw [addf_apply, addf_apply, refDot16_apply, refDot16_apply, refBias16_apply]
  rfl

end Reference

end Cert.Sage.Combine

end
-- ==== Proof.ScoreBlocks.lean ====
/-
  The two edge-score regions read as whole arrays, and the matching stretch of the reference.

  An edge-score body takes two blocks of 4000 rows by 16 features, multiplies them entry by entry and sums each row
  over the 16 features; what it stores is the 4000 by 1 column of those row sums. Point `t` of the grid works on rows
  `4000 t … 4000 t + 3999` of the two input arrays and writes the same rows of the output column, and the points
  together cover every row. So after the region the output array holds, at row `r`, the inner product of row `r` of
  the two inputs: `Cert.Sage.pairAt`. The reference computes the same column as a product of the two arrays, a sum
  along the feature axis starting from zero, and a broadcast of the vector of sums to a one-column matrix.
  Only sums and products of extended reals occur, so nothing here needs an entry to be finite.
-/
import proofs.«158304_j10900626997366_2_alg».proof.Proof.Gen.KernelIdeal.Frame
import proofs.«158304_j10900626997366_2_alg».proof.ReferenceIdeal
import proofs.«158304_j10900626997366_2_alg».proof.Proof.Gen.ReferenceIdeal
import proofs.«158304_j10900626997366_2_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

open scoped BigOperators

namespace Cert.Sage.Score

open Idealize.ShloMosaic Idealize.ShloMosaic.ValueIdx

/-! ## The index a sum along the features visits, for any extents -/

/-- Inserting coordinate `k` on axis 1 over the rank-1 index `p` gives the matrix index `(p, k)`. -/
theorem lift_row {n d : Nat} (h : (⟨2, ![n, d]⟩ : Shape).Reduces [1] ⟨1, ![n]⟩) (p : Fin n) (k : Fin d) :
    h.lift (ix1 p) k = ix2 p k := by
  funext a
  match a with
  | ⟨0, _⟩ => exact Fin.ext rfl
  | ⟨1, _⟩ => exact Fin.ext rfl

/-! ## The reference: product, sum along the features from zero, broadcast to a column -/

section Reference

open Cert.ReferenceIdeal Cert.ReferenceIdeal.Facts₀

/-- A sum along axis 1 of an `n × d` array of extended reals, started from the zero word, then viewed as an
    `n × 1` column: entry `(r, 0)` is the sum over the `d` features of row `r`. -/
theorem colSum_apply {n d : Nat} (x : FVec Ideal ⟨2, ![n, d]⟩ .f32)
    (hb : (⟨1, ![n]⟩ : Shape).BroadcastsInDim ⟨2, ![n, 1]⟩ (![0] : Fin 1 → Fin 2))
    (hr' : (⟨2, ![n, d]⟩ : Shape).ReducesTo [1] ⟨1, ![n]⟩) (hr : (⟨2, ![n, d]⟩ : Shape).Reduces [1] ⟨1, ![n]⟩)
    (hu : 0 < (⟨0, ![]⟩ : Shape).numel) (hn : n ≠ 1) (i : (⟨2, ![n, 1]⟩ : Shape).Idx) :
    broadcastInDim ⟨2, ![n, 1]⟩ ![0] hb
        (Host.reduceAdd (F := Ideal) x (constant (F := Ideal) ⟨0, ![]⟩ .f32 0x00000000#32) hr' hu) i
      = ∑ k : Fin d, x (ix2 ⟨(i 0).val, idx2_lt0 i⟩ k) := by
  refine (broadcastInDim_apply _ hb _ i (ix1 ⟨(i 0).val, idx2_lt0 i⟩) (fun a => ?_)).trans ?_
  · match a with
    | ⟨0, _⟩ => exact (if_neg hn).symm
  · rw [hostReduceAdd_apply, Ideal.hostReduceAdd_single hr' hr, constant_apply, Ideal.ofBits_zero_f32, zero_add]
    exact Finset.sum_congr rfl fun k _ => congrArg x (lift_row hr _ k)

/-- The reference's score of 100000 pairs: entry `(r, 0)` is the inner product of row `r` of the two arrays. -/
theorem scoreRef100k (gu gv : FVec Ideal S100000x16 .f32) :
    broadcastInDim S100000x1 ![0] bcast_S100000_S100000x1_0
        (Host.reduceAdd (F := Ideal) (mulf gu gv) (constant (F := Ideal) S_ .f32 0x00000000#32) reducesTo_S100000x16_S100000_d1 h_S_)
      = fun i => Cert.Sage.pairAt (fun (p : Fin 100000) (k : Fin 16) => gu (ix2 p k))
          (fun (p : Fin 100000) (k : Fin 16) => gv (ix2 p k)) ⟨(i 0).val, (i 0).isLt⟩ := by
  funext i
  exact colSum_apply (mulf gu gv) _ _ (by decide) _ (by decide) i

/-- The reference's score of 500000 pairs, likewise. -/
theorem scoreRef500k (gu gv : FVec Ideal S500000x16 .f32) :
    broadcastInDim S500000x1 ![0] bcast_S500000_S500000x1_0
        (Host.reduceAdd (F := Ideal) (mulf gu gv) (constant (F := Ideal) S_ .f32 0x00000000#32) reducesTo_S500000x16_S500000_d1 h_S_)
      = fun i => Cert.Sage.pairAt (fun (p : Fin 500000) (k : Fin 16) => gu (ix2 p k))
          (fun (p : Fin 500000) (k : Fin 16) => gv (ix2 p k)) ⟨(i 0).val, (i 0).isLt⟩ := by
  funext i
  exact colSum_apply (mulf gu gv) _ _ (by decide) _ (by decide) i

end Reference

/-! ## The body's arithmetic at a row, for any extents -/

/-- A sum over axis 1 of an `n × d` vector, read at row `p`: the sum over the `d` features of that row. -/
theorem rowSum_apply {n d : Nat} (x : FVec Ideal ⟨2, ![n, d]⟩ .f32) (acc : BitVec FTy.f32.bits)
    (h : (⟨2, ![n, d]⟩ : Shape).Reduces [1] ⟨1, ![n]⟩) (hφ : FKind.Formats .f32)
    (hacc : acc = FKind.add.neutral .f32 hφ) (p : Fin n) :
    multiReduction .add [1] ⟨1, ![n]⟩ x acc h hφ hacc (ix1 p) = ∑ k : Fin d, x (ix2 p k) :=
  (Ideal.multiReduction_add_single x acc h hφ hacc (ix1 p)).trans
    (Finset.sum_congr rfl fun k _ => congrArg x (lift_row h p k))

/-- A vector of `n` entries viewed as an `n × 1` column reads, at `(p, 0)`, entry `p`: the two indices have the
    same row-major position. -/
theorem colCast_apply {n : Nat} {α : Type} (v : (⟨1, ![n]⟩ : Shape).Idx → α)
    (h : (⟨1, ![n]⟩ : Shape).ShapeCasts ⟨2, ![n, 1]⟩) (p : Fin n) (q : Fin 1) :
    shapeCast ⟨2, ![n, 1]⟩ v h (ix2 p q) = v (ix1 p) :=
  shapeCast_apply v h (ix2 p q) (ix1 p) (by
    rw [Shape.rowMajor_val_one, Shape.rowMajor_val_two]
    show p.val = p.val * 1 + q.val
    have := q.isLt
    omega)

/-- The edge-score arithmetic on two `n × d` blocks, read at row `p` of its `n × 1` result: the casts to the same
    shape are the identity, the product is entry by entry, the lane sum runs over the features of row `p`, and the
    column view reads entry `p` of the vector of sums. -/
theorem rowDot_apply {n d : Nat} (x0 x1 : FVec Ideal ⟨2, ![n, d]⟩ .f32)
    (h0 h1 : (⟨2, ![n, d]⟩ : Shape).ShapeCasts ⟨2, ![n, d]⟩) (acc : BitVec FTy.f32.bits)
    (hr : (⟨2, ![n, d]⟩ : Shape).Reduces [1] ⟨1, ![n]⟩) (hφ : FKind.Formats .f32)
    (hacc : acc = FKind.add.neutral .f32 hφ) (hc : (⟨1, ![n]⟩ : Shape).ShapeCasts ⟨2, ![n, 1]⟩)
    (p : Fin n) (q : Fin 1) :
    shapeCast ⟨2, ![n, 1]⟩
        (multiReduction .add [1] ⟨1, ![n]⟩ (mulf (shapeCast ⟨2, ![n, d]⟩ x0 h0) (shapeCast ⟨2, ![n, d]⟩ x1 h1)) acc hr hφ hacc)
        hc (ix2 p q)
      = ∑ k : Fin d, x0 (ix2 p k) * x1 (ix2 p k) := by
  rw [colCast_apply, rowSum_apply, shapeCast_self, shapeCast_self]
  rfl

/-! ## The first edge-score region: 25 points of 4000 rows over 100000 pairs -/

section Kernel

open Cert.KernelIdeal Cert.KernelIdeal.Gen Idealize.ShloMosaic.TcCoe Idealize.SL.Sem
open Idealize.ShloMosaic.Pipeline (Dat)

/-- The zero offsets of a whole-block load or store, however the zeros are spelt. -/
theorem zero_offsets : (![0, 0] : Fin 2 → Nat) = fun _ => 0 := funext fun a => by fin_cases a <;> rfl

/-- The body's payload at row `p` of its column: the inner product of row `p` of the two loaded blocks. -/
theorem pay3_apply (x0 x1 : Vec Ideal S4000x16 .f32) (p : Fin 4000) (q : Fin 1) :
    k3_pay1 x0 x1 (ix2 p q) = ∑ k : Fin 16, x0 (ix2 p k) * x1 (ix2 p k) := by
  unfold k3_pay1
  exact rowDot_apply x0 x1 _ _ _ _ _ _ _ p q

variable (V : (c : Dev nD) → (b : Ref sig .tc) → Buf (Elt Ideal) ((c : Thread nD τ).loc b))

/-- The printed index maps over the grid: at point `t` every window's block index is `(t, 0)`. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Row `p` of the first input's block at point `t` is row `4000 t + p` of the array. -/
theorem iblk3_0_apply (c : Dev nD) (t : Fin cfg3.N) (p : Fin 4000) (k : Fin 16) (r : Fin 100000)
    (hr : r.val = t.val * 4000 + p.val) :
    (iblk3 (F := Ideal) V c 0 t : Vec Ideal S4000x16 .f32) (ix2 p k) = V c main_v59 (ix2 r k) := by
  obtain ⟨e0, e1, -⟩ := idx3 t
  show V c main_v59 (((cfg3.win 0).blk t).view.emb (ix2 p k)) = V c main_v59 (ix2 r k)
  congr 1
  funext a
  apply Fin.ext
  match a with
  | ⟨0, _⟩ => show win3_0.index t (0 : Fin 2) * 4000 + 1 * p.val = r.val; rw [e0, hr]; omega
  | ⟨1, _⟩ => show win3_0.index t (1 : Fin 2) * 16 + 1 * k.val = k.val; rw [e1]; omega

/-- Row `p` of the second input's block at point `t` is row `4000 t + p` of the array. -/
theorem iblk3_1_apply (c : Dev nD) (t : Fin cfg3.N) (p : Fin 4000) (k : Fin 16) (r : Fin 100000)
    (hr : r.val = t.val * 4000 + p.val) :
    (iblk3 (F := Ideal) V c 1 t : Vec Ideal S4000x16 .f32) (ix2 p k) = V c main_v66 (ix2 r k) := by
  obtain ⟨-, -, e2, e3, -⟩ := idx3 t
  show V c main_v66 (((cfg3.win 1).blk t).view.emb (ix2 p k)) = V c main_v66 (ix2 r k)
  congr 1
  funext a
  apply Fin.ext
  match a with
  | ⟨0, _⟩ => show win3_1.index t (0 : Fin 2) * 4000 + 1 * p.val = r.val; rw [e2, hr]; omega
  | ⟨1, _⟩ => show win3_1.index t (1 : Fin 2) * 16 + 1 * k.val = k.val; rw [e3]; omega

/-- The column of pair scores of the two arrays as the region finds them. -/
abbrev scores3 (c : Dev nD) : S100000x1.Idx → EReal := fun i =>
  Cert.Sage.pairAt (fun (p : Fin 100000) (k : Fin 16) => V c main_v59 (ix2 p k))
    (fun (p : Fin 100000) (k : Fin 16) => V c main_v66 (ix2 p k)) ⟨(i 0).val, (i 0).isLt⟩

/-- What point `t` writes back is block `t` of the column of pair scores. -/
theorem flushed3_eq (c : Dev nD) (t : Fin cfg3.N) :
    (dat3 (F := Ideal) V c).flushed 2 t = ((cfg3.win 2).blk t).view.read (Elt Ideal) (scores3 V c) := by
  show (cfg3.win 2).cut (grid3.coords t) ((dat3 (F := Ideal) V c).after 2 t) = _
  rw [after3_2]
  unfold out3_2
  rw [View.canon_unit_zero zero_offsets]
  simp only [View.ld_unit_zero (S := S4000x16) zero_offsets]
  obtain ⟨-, -, -, -, e4, -⟩ := idx3 t
  funext j
  have hj : (j 0).val < 4000 := (j 0).isLt
  show k3_pay1 (iblk3 (F := Ideal) V c 0 t) (iblk3 (F := Ideal) V c 1 t) (ix2 ⟨(j 0).val, hj⟩ ⟨(j 1).val, (j 1).isLt⟩)
      = scores3 V c (((cfg3.win 2).blk t).view.emb j)
  rw [pay3_apply]
  have hr : ((((cfg3.win 2).blk t).view.emb j) 0).val = t.val * 4000 + (j 0).val := by
    show win3_2.index t (0 : Fin 2) * 4000 + 1 * (j 0).val = _
    rw [e4]; omega
  unfold scores3 Cert.Sage.pairAt
  exact Finset.sum_congr rfl fun k _ => congrArg₂ (· * ·)
    (iblk3_0_apply V c t ⟨(j 0).val, hj⟩ k ⟨_, ((((cfg3.win 2).blk t).view.emb j) 0).isLt⟩ hr)
    (iblk3_1_apply V c t ⟨(j 0).val, hj⟩ k ⟨_, ((((cfg3.win 2).blk t).view.emb j) 0).isLt⟩ hr)

/-- An index of the column is in point `t`'s block iff each coordinate is in the block's range on its axis. -/
theorem mem_blk3 (t : Fin cfg3.N) (i : S100000x1.Idx) :
    i ∈ ((cfg3.win 2).blk t).view.set ↔ ∀ a : Fin 2, win3_2.index t a * S4000x1.size a ≤ (i a).val
      ∧ (i a).val < win3_2.index t a * S4000x1.size a + S4000x1.size a := by
  show i ∈ ((View.whole main_v81).slice (win3_2.rect t)).set ↔ _
  rw [View.set_slice_whole, Rect.mem_set_unit]
  exact Iff.rfl

/-- Every row of the column is written back by some point: row `r` by point `r / 4000`. -/
theorem cover3 (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  have hN : cfg3.N = 25 := N_3
  have ht : (i 0).val / 4000 < cfg3.N := by rw [hN]; omega
  obtain ⟨-, -, -, -, e4, e5⟩ := idx3 ⟨(i 0).val / 4000, ht⟩
  refine ⟨⟨(i 0).val / 4000, ht⟩, flush3_2 _, ?_⟩
  rw [mem_blk3]
  intro a
  match a with
  | ⟨0, _⟩ =>
    show win3_2.index ⟨(i 0).val / 4000, ht⟩ (0 : Fin 2) * 4000 ≤ (i 0).val
      ∧ (i 0).val < win3_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win3_2.index ⟨(i 0).val / 4000, ht⟩ (1 : Fin 2) * 1 ≤ (i 1).val
      ∧ (i 1).val < win3_2.index ⟨(i 0).val / 4000, ht⟩ (1 : Fin 2) * 1 + 1
    rw [e5]; omega

/-- After the region the output column holds the pair scores of the two input arrays as the region found them. -/
theorem score3_array (c : Dev nD) :
    (dat3 (F := Ideal) V c).arrAt 2 cfg3.N
      = fun i => Cert.Sage.pairAt (fun (p : Fin 100000) (k : Fin 16) => V c main_v59 (ix2 p k))
          (fun (p : Fin 100000) (k : Fin 16) => V c main_v66 (ix2 p k)) ⟨(i 0).val, (i 0).isLt⟩ :=
  (dat3 (F := Ideal) V c).arrAt_eq_of_cover 2 (scores3 V c) (fun t _ => flushed3_eq V c t) cover3

/-! ## The second edge-score region: 125 points of 4000 rows over 500000 pairs -/

/-- The body's payload at row `p` of its column: the inner product of row `p` of the two loaded blocks. -/
theorem pay4_apply (x0 x1 : Vec Ideal S4000x16 .f32) (p : Fin 4000) (q : Fin 1) :
    k4_pay1 x0 x1 (ix2 p q) = ∑ k : Fin 16, x0 (ix2 p k) * x1 (ix2 p k) := by
  unfold k4_pay1
  exact rowDot_apply x0 x1 _ _ _ _ _ _ _ p q

/-- The printed index maps over the grid: at point `t` every window's block index is `(t, 0)`. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row `p` of the first input's block at point `t` is row `4000 t + p` of the array. -/
theorem iblk4_0_apply (c : Dev nD) (t : Fin cfg4.N) (p : Fin 4000) (k : Fin 16) (r : Fin 500000)
    (hr : r.val = t.val * 4000 + p.val) :
    (iblk4 (F := Ideal) V c 0 t : Vec Ideal S4000x16 .f32) (ix2 p k) = V c main_v73 (ix2 r k) := by
  obtain ⟨e0, e1, -⟩ := idx4 t
  show V c main_v73 (((cfg4.win 0).blk t).view.emb (ix2 p k)) = V c main_v73 (ix2 r k)
  congr 1
  funext a
  apply Fin.ext
  match a with
  | ⟨0, _⟩ => show win4_0.index t (0 : Fin 2) * 4000 + 1 * p.val = r.val; rw [e0, hr]; omega
  | ⟨1, _⟩ => show win4_0.index t (1 : Fin 2) * 16 + 1 * k.val = k.val; rw [e1]; omega

/-- Row `p` of the second input's block at point `t` is row `4000 t + p` of the array. -/
theorem iblk4_1_apply (c : Dev nD) (t : Fin cfg4.N) (p : Fin 4000) (k : Fin 16) (r : Fin 500000)
    (hr : r.val = t.val * 4000 + p.val) :
    (iblk4 (F := Ideal) V c 1 t : Vec Ideal S4000x16 .f32) (ix2 p k) = V c main_v80 (ix2 r k) := by
  obtain ⟨-, -, e2, e3, -⟩ := idx4 t
  show V c main_v80 (((cfg4.win 1).blk t).view.emb (ix2 p k)) = V c main_v80 (ix2 r k)
  congr 1
  funext a
  apply Fin.ext
  match a with
  | ⟨0, _⟩ => show win4_1.index t (0 : Fin 2) * 4000 + 1 * p.val = r.val; rw [e2, hr]; omega
  | ⟨1, _⟩ => show win4_1.index t (1 : Fin 2) * 16 + 1 * k.val = k.val; rw [e3]; omega

/-- The column of pair scores of the two arrays as the region finds them. -/
abbrev scores4 (c : Dev nD) : S500000x1.Idx → EReal := fun i =>
  Cert.Sage.pairAt (fun (p : Fin 500000) (k : Fin 16) => V c main_v73 (ix2 p k))
    (fun (p : Fin 500000) (k : Fin 16) => V c main_v80 (ix2 p k)) ⟨(i 0).val, (i 0).isLt⟩

/-- What point `t` writes back is block `t` of the column of pair scores. -/
theorem flushed4_eq (c : Dev nD) (t : Fin cfg4.N) :
    (dat4 (F := Ideal) V c).flushed 2 t = ((cfg4.win 2).blk t).view.read (Elt Ideal) (scores4 V c) := by
  show (cfg4.win 2).cut (grid4.coords t) ((dat4 (F := Ideal) V c).after 2 t) = _
  rw [after4_2]
  unfold out4_2
  rw [View.canon_unit_zero zero_offsets]
  simp only [View.ld_unit_zero (S := S4000x16) zero_offsets]
  obtain ⟨-, -, -, -, e4, -⟩ := idx4 t
  funext j
  have hj : (j 0).val < 4000 := (j 0).isLt
  show k4_pay1 (iblk4 (F := Ideal) V c 0 t) (iblk4 (F := Ideal) V c 1 t) (ix2 ⟨(j 0).val, hj⟩ ⟨(j 1).val, (j 1).isLt⟩)
      = scores4 V c (((cfg4.win 2).blk t).view.emb j)
  rw [pay4_apply]
  have hr : ((((cfg4.win 2).blk t).view.emb j) 0).val = t.val * 4000 + (j 0).val := by
    show win4_2.index t (0 : Fin 2) * 4000 + 1 * (j 0).val = _
    rw [e4]; omega
  unfold scores4 Cert.Sage.pairAt
  exact Finset.sum_congr rfl fun k _ => congrArg₂ (· * ·)
    (iblk4_0_apply V c t ⟨(j 0).val, hj⟩ k ⟨_, ((((cfg4.win 2).blk t).view.emb j) 0).isLt⟩ hr)
    (iblk4_1_apply V c t ⟨(j 0).val, hj⟩ k ⟨_, ((((cfg4.win 2).blk t).view.emb j) 0).isLt⟩ hr)

/-- An index of the column is in point `t`'s block iff each coordinate is in the block's range on its axis. -/
theorem mem_blk4 (t : Fin cfg4.N) (i : S500000x1.Idx) :
    i ∈ ((cfg4.win 2).blk t).view.set ↔ ∀ a : Fin 2, win4_2.index t a * S4000x1.size a ≤ (i a).val
      ∧ (i a).val < win4_2.index t a * S4000x1.size a + S4000x1.size a := by
  show i ∈ ((View.whole main_v82).slice (win4_2.rect t)).set ↔ _
  rw [View.set_slice_whole, Rect.mem_set_unit]
  exact Iff.rfl

/-- Every row of the column is written back by some point: row `r` by point `r / 4000`. -/
theorem cover4 (i : S500000x1.Idx) :
    ∃ t : Fin cfg4.N, (cfg4.win 2).flush t = true ∧ i ∈ ((cfg4.win 2).blk t).view.set := by
  have hi0 : (i 0).val < 500000 := (i 0).isLt
  have hi1 : (i 1).val < 1 := (i 1).isLt
  have hN : cfg4.N = 125 := N_4
  have ht : (i 0).val / 4000 < cfg4.N := by rw [hN]; omega
  obtain ⟨-, -, -, -, e4, e5⟩ := idx4 ⟨(i 0).val / 4000, ht⟩
  refine ⟨⟨(i 0).val / 4000, ht⟩, flush4_2 _, ?_⟩
  rw [mem_blk4]
  intro a
  match a with
  | ⟨0, _⟩ =>
    show win4_2.index ⟨(i 0).val / 4000, ht⟩ (0 : Fin 2) * 4000 ≤ (i 0).val
      ∧ (i 0).val < win4_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win4_2.index ⟨(i 0).val / 4000, ht⟩ (1 : Fin 2) * 1 ≤ (i 1).val
      ∧ (i 1).val < win4_2.index ⟨(i 0).val / 4000, ht⟩ (1 : Fin 2) * 1 + 1
    rw [e5]; omega

/-- After the region the output column holds the pair scores of the two input arrays as the region found them. -/
theorem score4_array (c : Dev nD) :
    (dat4 (F := Ideal) V c).arrAt 2 cfg4.N
      = fun i => Cert.Sage.pairAt (fun (p : Fin 500000) (k : Fin 16) => V c main_v73 (ix2 p k))
          (fun (p : Fin 500000) (k : Fin 16) => V c main_v80 (ix2 p k)) ⟨(i 0).val, (i 0).isLt⟩ :=
  (dat4 (F := Ideal) V c).arrAt_eq_of_cover 2 (scores4 V c) (fun t _ => flushed4_eq V c t) cover4

end Kernel

end Cert.Sage.Score

end
-- ==== Proof.HostChain.lean ====
/-
  The kernel program's two results as closed terms of the launch memory.

  The boundary fold is walked backwards from each result: a region's output array is, by the region's value
  lemma, the layer function (or the pair scores) of the arrays the region found; an array a host stretch wrote is
  the stretch's term of what it read; a buffer nothing wrote since is what it was. After three layers and the
  endpoint gathers each result is one term of the sixteen argument arrays.
-/
import proofs.«158304_j10900626997366_2_alg».proof.Proof.HostTerms
import proofs.«158304_j10900626997366_2_alg».proof.Proof.CombineBlocks
import proofs.«158304_j10900626997366_2_alg».proof.Proof.ScoreBlocks
import proofs.«158304_j10900626997366_2_alg».proof.Proof.Spec

noncomputable section

namespace Cert.Sage.K

open Cert.KernelIdeal Cert.KernelIdeal.Gen
open Idealize.ShloMosaic Idealize.ShloMosaic.TcCoe Idealize.ShloMosaic.StableHlo Idealize.SL.Sem Idealize.ShloMosaic.ValueIdx

/-! ## What a region leaves, as a function of the arrays it finds -/

/-- A 128-to-128 layer with the rectifier: entry `(r, j)` is `max (h · Ws + hn · Wn + b) 0` there. -/
def layerRelu (h hn : (⟨S100000x128, .f32⟩ : BufTy).Contents (Elt Ideal)) (ws wn : (⟨S128x128, .f32⟩ : BufTy).Contents (Elt Ideal)) (brow : (⟨S1x128, .f32⟩ : BufTy).Contents (Elt Ideal)) :
    (⟨S100000x128, .f32⟩ : BufTy).Contents (Elt Ideal) :=
  fun i => max (Cert.Sage.layerAt (fun (r : Fin 100000) (k : Fin 128) => h (ix2 r k)) (fun r k => hn (ix2 r k))
    (fun (k j : Fin 128) => ws (ix2 k j)) (fun k j => wn (ix2 k j)) (fun (j : Fin 128) => brow (ix2 (0 : Fin 1) j))
    ⟨(i 0).val, (i 0).isLt⟩ ⟨(i 1).val, (i 1).isLt⟩) 0

/-- The 128-to-16 layer, no rectifier. -/
def layerLin (h hn : (⟨S100000x128, .f32⟩ : BufTy).Contents (Elt Ideal)) (ws wn : (⟨S128x16, .f32⟩ : BufTy).Contents (Elt Ideal)) (brow : (⟨S1x16, .f32⟩ : BufTy).Contents (Elt Ideal)) :
    (⟨S100000x16, .f32⟩ : BufTy).Contents (Elt Ideal) :=
  fun i => Cert.Sage.layerAt (fun (r : Fin 100000) (k : Fin 128) => h (ix2 r k)) (fun r k => hn (ix2 r k))
    (fun (k : Fin 128) (j : Fin 16) => ws (ix2 k j)) (fun k j => wn (ix2 k j)) (fun (j : Fin 16) => brow (ix2 (0 : Fin 1) j))
    ⟨(i 0).val, (i 0).isLt⟩ ⟨(i 1).val, (i 1).isLt⟩

/-- The scores of the 100000 pairs whose endpoint rows are `gu`, `gv`. -/
def scoreP (gu gv : (⟨S100000x16, .f32⟩ : BufTy).Contents (Elt Ideal)) : (⟨S100000x1, .f32⟩ : BufTy).Contents (Elt Ideal) :=
  fun i => Cert.Sage.pairAt (fun (p : Fin 100000) (k : Fin 16) => gu (ix2 p k)) (fun (p : Fin 100000) (k : Fin 16) => gv (ix2 p k))
    ⟨(i 0).val, (i 0).isLt⟩

/-- The scores of the 500000 pairs. -/
def scoreN (gu gv : (⟨S500000x16, .f32⟩ : BufTy).Contents (Elt Ideal)) : (⟨S500000x1, .f32⟩ : BufTy).Contents (Elt Ideal) :=
  fun i => Cert.Sage.pairAt (fun (p : Fin 500000) (k : Fin 16) => gu (ix2 p k)) (fun (p : Fin 500000) (k : Fin 16) => gv (ix2 p k))
    ⟨(i 0).val, (i 0).isLt⟩

variable (m : (ℓ : Loc nD τ sig) → Buf (Elt Ideal) ℓ) (ρ : Dev nD → PrngReg) (c : Dev nD)

/-! ## The three layers and the two results, of the launch memory -/

/-- The node features after the first layer. -/
def h1 : (⟨S100000x128, .f32⟩ : BufTy).Contents (Elt Ideal) :=
  layerRelu (m ((c : Thread nD τ).loc main_arg0)) (nbrMean (m ((c : Thread nD τ).loc main_arg0)) (m ((c : Thread nD τ).loc main_arg1)) (m ((c : Thread nD τ).loc main_arg2))) (m ((c : Thread nD τ).loc main_arg7)) (m ((c : Thread nD τ).loc main_arg8)) (biasRow128 (m ((c : Thread nD τ).loc main_arg9)))
/-- After the second. -/
def h2 : (⟨S100000x128, .f32⟩ : BufTy).Contents (Elt Ideal) :=
  layerRelu (h1 m c) (nbrMean (h1 m c) (m ((c : Thread nD τ).loc main_arg1)) (m ((c : Thread nD τ).loc main_arg2))) (m ((c : Thread nD τ).loc main_arg10)) (m ((c : Thread nD τ).loc main_arg11)) (biasRow128 (m ((c : Thread nD τ).loc main_arg12)))
/-- After the third. -/
def h3 : (⟨S100000x16, .f32⟩ : BufTy).Contents (Elt Ideal) :=
  layerLin (h2 m c) (nbrMean (h2 m c) (m ((c : Thread nD τ).loc main_arg1)) (m ((c : Thread nD τ).loc main_arg2))) (m ((c : Thread nD τ).loc main_arg13)) (m ((c : Thread nD τ).loc main_arg14)) (biasRow16 (m ((c : Thread nD τ).loc main_arg15)))
/-- The first result. -/
def out0 : (⟨S100000x1, .f32⟩ : BufTy).Contents (Elt Ideal) := scoreP (rowsP (h3 m c) (m ((c : Thread nD τ).loc main_arg3))) (rowsP (h3 m c) (m ((c : Thread nD τ).loc main_arg4)))
/-- The second result. -/
def out1 : (⟨S500000x1, .f32⟩ : BufTy).Contents (Elt Ideal) := scoreN (rowsN (h3 m c) (m ((c : Thread nD τ).loc main_arg5))) (rowsN (h3 m c) (m ((c : Thread nD τ).loc main_arg6)))

/-! ## Layer 1 -/

theorem V1_arg0 : V1 m ρ c main_arg0 = (m ((c : Thread nD τ).loc main_arg0)) := W1_arg0 m ρ c
theorem V1_arg7 : V1 m ρ c main_arg7 = (m ((c : Thread nD τ).loc main_arg7)) := W1_arg7 m ρ c
theorem V1_arg8 : V1 m ρ c main_arg8 = (m ((c : Thread nD τ).loc main_arg8)) := W1_arg8 m ρ c
theorem V1_v20 : (V1 m ρ c main_v20 : (⟨S100000x128, .f32⟩ : BufTy).Contents (Elt Ideal)) = nbrMean (m ((c : Thread nD τ).loc main_arg0)) (m ((c : Thread nD τ).loc main_arg1)) (m ((c : Thread nD τ).loc main_arg2)) := by
  dsimp only [V1, W1]; after_results_simp <;> rfl
theorem V1_v21 : (V1 m ρ c main_v21 : (⟨S1x128, .f32⟩ : BufTy).Contents (Elt Ideal)) = biasRow128 (m ((c : Thread nD τ).loc main_arg9)) := by
  dsimp only [V1, W1]; after_results_simp <;> rfl

/-- Region 0 leaves the first layer's features in its output array. -/
theorem after_region0 : (W2 m ρ c (Proc.devRef .tc main_v22) : (⟨S100000x128, .f32⟩ : BufTy).Contents (Elt Ideal)) = h1 m c := by
  refine (W2_arr m ρ c 5).trans ((Cert.Sage.Combine.combine0_array (V1 m ρ) c).trans ?_)
  rw [V1_arg0 m ρ c, V1_v20 m ρ c, V1_arg7 m ρ c, V1_arg8 m ρ c, V1_v21 m ρ c]
  rfl

/-! ## Layer 2 -/

theorem V3_v22 : (V3 m ρ c main_v22 : (⟨S100000x128, .f32⟩ : BufTy).Contents (Elt Ideal)) = h1 m c :=
  (show V3 m ρ c main_v22 = W2 m ρ c (Proc.devRef .tc main_v22) by dsimp only [V3, W3]; after_results_simp <;> rfl).trans (after_region0 m ρ c)
theorem V3_arg10 : V3 m ρ c main_arg10 = (m ((c : Thread nD τ).loc main_arg10)) := W3_arg10 m ρ c
theorem V3_arg11 : V3 m ρ c main_arg11 = (m ((c : Thread nD τ).loc main_arg11)) := W3_arg11 m ρ c
theorem V3_v35 : (V3 m ρ c main_v35 : (⟨S100000x128, .f32⟩ : BufTy).Contents (Elt Ideal)) = nbrMean (h1 m c) (m ((c : Thread nD τ).loc main_arg1)) (m ((c : Thread nD τ).loc main_arg2)) := by
  dsimp only [V3, W3]; after_results_simp
  rw [after_region0 m ρ c, W2_arg1 m ρ c, W2_arg2 m ρ c, W2_v7 m ρ c]
  rfl
theorem V3_v36 : (V3 m ρ c main_v36 : (⟨S1x128, .f32⟩ : BufTy).Contents (Elt Ideal)) = biasRow128 (m ((c : Thread nD τ).loc main_arg12)) := by
  dsimp only [V3, W3]; after_results_simp
  rw [W2_arg12 m ρ c]
  rfl

/-- Region 1 leaves the second layer's features in its output array. -/
theorem after_region1 : (W4 m ρ c (Proc.devRef .tc main_v37) : (⟨S100000x128, .f32⟩ : BufTy).Contents (Elt Ideal)) = h2 m c := by
  refine (W4_arr m ρ c 5).trans ((Cert.Sage.Combine.combine1_array (V3 m ρ) c).trans ?_)
  rw [V3_v22 m ρ c, V3_v35 m ρ c, V3_arg10 m ρ c, V3_arg11 m ρ c, V3_v36 m ρ c]
  rfl

/-! ## Layer 3 -/

theorem V5_v37 : (V5 m ρ c main_v37 : (⟨S100000x128, .f32⟩ : BufTy).Contents (Elt Ideal)) = h2 m c :=
  (show V5 m ρ c main_v37 = W4 m ρ c (Proc.devRef .tc main_v37) by dsimp only [V5, W5]; after_results_simp <;> rfl).trans (after_region1 m ρ c)
theorem V5_arg13 : V5 m ρ c main_arg13 = (m ((c : Thread nD τ).loc main_arg13)) := W5_arg13 m ρ c
theorem V5_arg14 : V5 m ρ c main_arg14 = (m ((c : Thread nD τ).loc main_arg14)) := W5_arg14 m ρ c
theorem V5_v50 : (V5 m ρ c main_v50 : (⟨S100000x128, .f32⟩ : BufTy).Contents (Elt Ideal)) = nbrMean (h2 m c) (m ((c : Thread nD τ).loc main_arg1)) (m ((c : Thread nD τ).loc main_arg2)) := by
  dsimp only [V5, W5]; after_results_simp
  rw [after_region1 m ρ c, W4_arg1 m ρ c, W4_arg2 m ρ c, W4_v7 m ρ c]
  rfl
theorem V5_v51 : (V5 m ρ c main_v51 : (⟨S1x16, .f32⟩ : BufTy).Contents (Elt Ideal)) = biasRow16 (m ((c : Thread nD τ).loc main_arg15)) := by
  dsimp only [V5, W5]; after_results_simp
  rw [W4_arg15 m ρ c]
  rfl

/-- Region 2 leaves the third layer's features in its output array. -/
theorem after_region2 : (W6 m ρ c (Proc.devRef .tc main_v52) : (⟨S100000x16, .f32⟩ : BufTy).Contents (Elt Ideal)) = h3 m c := by
  refine (W6_arr m ρ c 5).trans ((Cert.Sage.Combine.combine2_array (V5 m ρ) c).trans ?_)
  rw [V5_v37 m ρ c, V5_v50 m ρ c, V5_arg13 m ρ c, V5_arg14 m ρ c, V5_v51 m ρ c]
  rfl

/-! ## The endpoint rows and the scores -/

theorem W7_v59 : (W7 m ρ c (Proc.devRef .tc main_v59) : (⟨S100000x16, .f32⟩ : BufTy).Contents (Elt Ideal)) = rowsP (h3 m c) (m ((c : Thread nD τ).loc main_arg3)) := by
  dsimp only [W7]; after_results_simp
  rw [after_region2 m ρ c, W6_arg3 m ρ c]
  rfl
theorem W7_v66 : (W7 m ρ c (Proc.devRef .tc main_v66) : (⟨S100000x16, .f32⟩ : BufTy).Contents (Elt Ideal)) = rowsP (h3 m c) (m ((c : Thread nD τ).loc main_arg4)) := by
  dsimp only [W7]; after_results_simp
  rw [after_region2 m ρ c, W6_arg4 m ρ c]
  rfl
theorem W7_v73 : (W7 m ρ c (Proc.devRef .tc main_v73) : (⟨S500000x16, .f32⟩ : BufTy).Contents (Elt Ideal)) = rowsN (h3 m c) (m ((c : Thread nD τ).loc main_arg5)) := by
  dsimp only [W7]; after_results_simp
  rw [after_region2 m ρ c, W6_arg5 m ρ c]
  rfl
theorem W7_v80 : (W7 m ρ c (Proc.devRef .tc main_v80) : (⟨S500000x16, .f32⟩ : BufTy).Contents (Elt Ideal)) = rowsN (h3 m c) (m ((c : Thread nD τ).loc main_arg6)) := by
  dsimp only [W7]; after_results_simp
  rw [after_region2 m ρ c, W6_arg6 m ρ c]
  rfl

theorem V7_v59 : (V7 m ρ c main_v59 : (⟨S100000x16, .f32⟩ : BufTy).Contents (Elt Ideal)) = rowsP (h3 m c) (m ((c : Thread nD τ).loc main_arg3)) := W7_v59 m ρ c
theorem V7_v66 : (V7 m ρ c main_v66 : (⟨S100000x16, .f32⟩ : BufTy).Contents (Elt Ideal)) = rowsP (h3 m c) (m ((c : Thread nD τ).loc main_arg4)) := W7_v66 m ρ c
/-- Region 3 touches neither of the second pair list's row arrays. -/
theorem V8_v73 : (V8 m ρ c main_v73 : (⟨S500000x16, .f32⟩ : BufTy).Contents (Elt Ideal)) = rowsN (h3 m c) (m ((c : Thread nD τ).loc main_arg5)) :=
  (W8_of_ne m ρ c main_v73 (by decide)).trans (W7_v73 m ρ c)
theorem V8_v80 : (V8 m ρ c main_v80 : (⟨S500000x16, .f32⟩ : BufTy).Contents (Elt Ideal)) = rowsN (h3 m c) (m ((c : Thread nD τ).loc main_arg6)) :=
  (W8_of_ne m ρ c main_v80 (by decide)).trans (W7_v80 m ρ c)

/-- THE FIRST RESULT: region 3's output array, which region 4 does not touch. -/
theorem result0 : (W9 m ρ c (Proc.devRef .tc main_v81) : (⟨S100000x1, .f32⟩ : BufTy).Contents (Elt Ideal)) = out0 m c := by
  refine (W9_of_ne m ρ c main_v81 (by decide)).trans ((W8_arr m ρ c 2).trans ((Cert.Sage.Score.score3_array (V7 m ρ) c).trans ?_))
  rw [V7_v59 m ρ c, V7_v66 m ρ c]
  rfl

/-- THE SECOND RESULT: region 4's output array. -/
theorem result1 : (W9 m ρ c (Proc.devRef .tc main_v82) : (⟨S500000x1, .f32⟩ : BufTy).Contents (Elt Ideal)) = out1 m c := by
  refine (W9_arr m ρ c 2).trans ((Cert.Sage.Score.score4_array (V8 m ρ) c).trans ?_)
  rw [V8_v73 m ρ c, V8_v80 m ρ c]
  rfl

end Cert.Sage.K

end
-- ==== Proof.RefTerms.lean ====
/-
  The reference network, layer by layer.

  The reference computes three graph layers and two batches of edge scores.  A layer takes the node features `h`,
  gathers the rows of `h` at the edges' source nodes (a negative index wrapped by adding the number of nodes), adds them
  into the rows of the edges' destination nodes, divides by the destination's in-degree clipped below at 1, and
  returns  h·Ws + mean·Wn + b  (followed by a maximum with 0 in the first two layers).  A score gathers the final
  features at the two endpoint lists of a batch of pairs and sums the products of the two rows over the features.
  Each piece is named here as a function of its inputs, and the two results of the whole program are shown to be
  these pieces composed: the in-degree is recomputed by every layer and is the same term each time.
-/
import proofs.«158304_j10900626997366_2_alg».proof.Proof.Gen.ReferenceIdeal.Run

noncomputable section

namespace Cert.Sage.R

open Cert.ReferenceIdeal Cert.ReferenceIdeal.Gen Idealize.ShloMosaic Idealize.ShloMosaic.TcCoe Idealize.SL.Sem Idealize.ShloMosaic.StableHlo

variable {F : FTy → Type} [FloatOps F]

/-! ## Start indices: a negative index counts from the end -/

/-- The 1600000 edge endpoints as a column of gather start indices: an index below 0 has the 100000 nodes added. -/
def startsE (idx : (⟨S1600000, .i32⟩ : BufTy).Contents (Elt F)) : (⟨S1600000x1, .i32⟩ : BufTy).Contents (Elt F) :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The same for a list of 100000 pair endpoints. -/
def startsP (idx : (⟨S100000, .i32⟩ : BufTy).Contents (Elt F)) : (⟨S100000x1, .i32⟩ : BufTy).Contents (Elt F) :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 100000#32))) idx)

/-- The same for a list of 500000 pair endpoints. -/
def startsN (idx : (⟨S500000, .i32⟩ : BufTy).Contents (Elt F)) : (⟨S500000x1, .i32⟩ : BufTy).Contents (Elt F) :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 100000#32))) idx)

/-! ## The mean over the in-neighbours -/

/-- The sum, into each destination node's row, of the source nodes' rows of `h` over the 1600000 edges. -/
def nbrSum (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 h (startsE src))

/-- The in-degree of each node: a 1 added at the destination of every edge. -/
def degree (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 dst)
    (broadcastInDim S1600000 ![] bcast_S_S1600000 (constant (F := F) S_ .f32 0x3F800000#32))

/-- The in-degree clipped below at 1. -/
def clipDeg (dst : (⟨S1600000, .i32⟩ : BufTy).Contents (Elt F)) : (⟨S100000, .f32⟩ : BufTy).Contents (Elt F) :=
  maximumf (broadcastInDim S100000 ![] bcast_S_S100000 (id (constant (F := F) S_ .f32 0x3F800000#32))) (degree dst)

/-- The neighbour sum divided, row by row, by the clipped in-degree. -/
def mean (h : (⟨S100000x128, .f32⟩ : BufTy).Contents (Elt F)) (src dst : (⟨S1600000, .i32⟩ : BufTy).Contents (Elt F)) : (⟨S100000x128, .f32⟩ : BufTy).Contents (Elt F) :=
  Host.divf (nbrSum h src dst)
    (broadcastInDim S100000x128 ![0, 1] bcast_S100000x1_S100000x128_0_1
      (broadcastInDim S100000x1 ![0] bcast_S100000_S100000x1_0 (clipDeg dst)))

/-! ## The layers -/

/-- A layer with 128 output features followed by the maximum with 0:  max (h·Ws + mean·Wn + b, 0). -/
def layerRelu (h : (⟨S100000x128, .f32⟩ : BufTy).Contents (Elt F)) (src dst : (⟨S1600000, .i32⟩ : BufTy).Contents (Elt F)) (ws wn : (⟨S128x128, .f32⟩ : BufTy).Contents (Elt F)) (b : (⟨S128, .f32⟩ : BufTy).Contents (Elt F)) : (⟨S100000x128, .f32⟩ : BufTy).Contents (Elt F) :=
  maximumf
    (addf
      (addf (Host.dotGeneral dot_S100000x128_S128x128_S100000x128_1_0_0_1_n_n none h ws)
        (Host.dotGeneral dot_S100000x128_S128x128_S100000x128_1_0_0_1_n_n none (mean h src dst) wn))
      (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- The last layer, with 16 output features and no maximum:  h·Ws + mean·Wn + b. -/
def layerLin (h : (⟨S100000x128, .f32⟩ : BufTy).Contents (Elt F)) (src dst : (⟨S1600000, .i32⟩ : BufTy).Contents (Elt F)) (ws wn : (⟨S128x16, .f32⟩ : BufTy).Contents (Elt F)) (b : (⟨S16, .f32⟩ : BufTy).Contents (Elt F)) : (⟨S100000x16, .f32⟩ : BufTy).Contents (Elt F) :=
  addf
    (addf (Host.dotGeneral dot_S100000x128_S128x16_S100000x16_1_0_0_1_n_n none h ws)
      (Host.dotGeneral dot_S100000x128_S128x16_S100000x16_1_0_0_1_n_n none (mean h src dst) wn))
    (broadcastInDim S100000x16 ![0, 1] bcast_S1x16_S100000x16_0_1 (broadcastInDim S1x16 ![1] bcast_S16_S1x16_1 b))

/-- The three layers composed: the final 16 features of every node. -/
def layers3 (x : (⟨S100000x128, .f32⟩ : BufTy).Contents (Elt F)) (src dst : (⟨S1600000, .i32⟩ : BufTy).Contents (Elt F)) (w1s w1n : (⟨S128x128, .f32⟩ : BufTy).Contents (Elt F)) (b1 : (⟨S128, .f32⟩ : BufTy).Contents (Elt F)) (w2s w2n : (⟨S128x128, .f32⟩ : BufTy).Contents (Elt F)) (b2 : (⟨S128, .f32⟩ : BufTy).Contents (Elt F)) (w3s w3n : (⟨S128x16, .f32⟩ : BufTy).Contents (Elt F)) (b3 : (⟨S16, .f32⟩ : BufTy).Contents (Elt F)) : (⟨S100000x16, .f32⟩ : BufTy).Contents (Elt F) :=
  layerLin (layerRelu (layerRelu x src dst w1s w1n b1) src dst w2s w2n b2) src dst w3s w3n b3

/-! ## The edge scores -/

/-- The rows of the final features at a list of 100000 endpoints. -/
def rowsP (h : (⟨S100000x16, .f32⟩ : BufTy).Contents (Elt F)) (idx : (⟨S100000, .i32⟩ : BufTy).Contents (Elt F)) : (⟨S100000x16, .f32⟩ : BufTy).Contents (Elt F) :=
  Host.gather gather_S100000x16_S100000x1_S100000x16_1_0_n_n_0_1_116 h (startsP idx)

/-- The rows of the final features at a list of 500000 endpoints. -/
def rowsN (h : (⟨S100000x16, .f32⟩ : BufTy).Contents (Elt F)) (idx : (⟨S500000, .i32⟩ : BufTy).Contents (Elt F)) : (⟨S500000x16, .f32⟩ : BufTy).Contents (Elt F) :=
  Host.gather gather_S100000x16_S500000x1_S500000x16_1_0_n_n_0_1_116 h (startsN idx)

/-- The score of each of 100000 pairs, as a column: the sum over the 16 features of the products of the two rows. -/
def scoreP (gu gv : (⟨S100000x16, .f32⟩ : BufTy).Contents (Elt F)) : (⟨S100000x1, .f32⟩ : BufTy).Contents (Elt F) :=
  broadcastInDim S100000x1 ![0] bcast_S100000_S100000x1_0
    (Host.reduceAdd (mulf gu gv) (constant (F := F) S_ .f32 0x00000000#32) reducesTo_S100000x16_S100000_d1 h_S_)

/-- The same for 500000 pairs. -/
def scoreN (gu gv : (⟨S500000x16, .f32⟩ : BufTy).Contents (Elt F)) : (⟨S500000x1, .f32⟩ : BufTy).Contents (Elt F) :=
  broadcastInDim S500000x1 ![0] bcast_S500000_S500000x1_0
    (Host.reduceAdd (mulf gu gv) (constant (F := F) S_ .f32 0x00000000#32) reducesTo_S500000x16_S500000_d1 h_S_)

/-- The first result: the scores of the 100000 pairs (pu, pv) on the three layers' features. -/
def out0 (x : (⟨S100000x128, .f32⟩ : BufTy).Contents (Elt F)) (src dst : (⟨S1600000, .i32⟩ : BufTy).Contents (Elt F)) (pu pv : (⟨S100000, .i32⟩ : BufTy).Contents (Elt F)) (w1s w1n : (⟨S128x128, .f32⟩ : BufTy).Contents (Elt F)) (b1 : (⟨S128, .f32⟩ : BufTy).Contents (Elt F)) (w2s w2n : (⟨S128x128, .f32⟩ : BufTy).Contents (Elt F)) (b2 : (⟨S128, .f32⟩ : BufTy).Contents (Elt F)) (w3s w3n : (⟨S128x16, .f32⟩ : BufTy).Contents (Elt F)) (b3 : (⟨S16, .f32⟩ : BufTy).Contents (Elt F)) : (⟨S100000x1, .f32⟩ : BufTy).Contents (Elt F) :=
  scoreP (rowsP (layers3 x src dst w1s w1n b1 w2s w2n b2 w3s w3n b3) pu) (rowsP (layers3 x src dst w1s w1n b1 w2s w2n b2 w3s w3n b3) pv)

/-- The second result: the scores of the 500000 pairs (nu, nv). -/
def out1 (x : (⟨S100000x128, .f32⟩ : BufTy).Contents (Elt F)) (src dst : (⟨S1600000, .i32⟩ : BufTy).Contents (Elt F)) (nu nv : (⟨S500000, .i32⟩ : BufTy).Contents (Elt F)) (w1s w1n : (⟨S128x128, .f32⟩ : BufTy).Contents (Elt F)) (b1 : (⟨S128, .f32⟩ : BufTy).Contents (Elt F)) (w2s w2n : (⟨S128x128, .f32⟩ : BufTy).Contents (Elt F)) (b2 : (⟨S128, .f32⟩ : BufTy).Contents (Elt F)) (w3s w3n : (⟨S128x16, .f32⟩ : BufTy).Contents (Elt F)) (b3 : (⟨S16, .f32⟩ : BufTy).Contents (Elt F)) : (⟨S500000x1, .f32⟩ : BufTy).Contents (Elt F) :=
  scoreN (rowsN (layers3 x src dst w1s w1n b1 w2s w2n b2 w3s w3n b3) nu) (rowsN (layers3 x src dst w1s w1n b1 w2s w2n b2 w3s w3n b3) nv)

/-! ## The program's two results are these -/

set_option maxRecDepth 8192 in
/-- The program's first result is `out0` of its arguments. -/
theorem res_out0_eq (m : (ℓ : Loc nD τ sig) → Buf (Elt F) ℓ) (c : Dev nD) :
    Cert.ReferenceIdeal.Value.res_out0 m c
      = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  show Cert.ReferenceIdeal.Value.res_main_v90 m c = _
  unfold Cert.ReferenceIdeal.Value.res_main_v90 out0 scoreP rowsP startsP layers3 layerLin layerRelu mean nbrSum clipDeg degree startsE
  rfl

set_option maxRecDepth 8192 in
/-- The program's second result is `out1` of its arguments. -/
theorem res_out1_eq (m : (ℓ : Loc nD τ sig) → Buf (Elt F) ℓ) (c : Dev nD) :
    Cert.ReferenceIdeal.Value.res_out1 m c
      = out1 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  show Cert.ReferenceIdeal.Value.res_main_v107 m c = _
  unfold Cert.ReferenceIdeal.Value.res_main_v107 out1 scoreN rowsN startsN layers3 layerLin layerRelu mean nbrSum clipDeg degree startsE
  rfl

end Cert.Sage.R

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.NbrMean.lean ====
/-
  The neighbour mean, two ways.

  The kernel's host code scales the neighbour sums of node `r` by `1 / max (deg r) 1`, computed once for all three
  layers; the reference divides them by `max 1 (deg r)`. On the extended reals a quotient by `y ≠ 0` is the product
  with `y⁻¹`, and `1 / y` is then `y⁻¹` itself. A degree clipped below by one is at least one, hence never zero, so
  the two arrays agree entry by entry whatever the sums and the degrees are: no finiteness is used.
-/
import proofs.«158304_j10900626997366_2_alg».proof.KernelIdeal
import proofs.«158304_j10900626997366_2_alg».proof.ReferenceIdeal
import proofs.«158304_j10900626997366_2_alg».proof.Proof.Gen.KernelIdeal
import proofs.«158304_j10900626997366_2_alg».proof.Proof.Gen.ReferenceIdeal
import proofs.«158304_j10900626997366_2_alg».proof.Proof.LibBroadcasts
import Idealize.ShloMosaic.PureOps.Ideal
import Idealize.ShloMosaic.Lib.ValueIdx
import Idealize.ShloMosaic.Lib.IdealHost

noncomputable section

namespace Cert.Sage

open Idealize.ShloMosaic Idealize.ShloMosaic.ValueIdx

/-- The word `0x3F800000` is the number one. -/
theorem word_one : Ideal.ofBits .f32 0x3F800000#32 = 1 := Ideal.ofBits_one_f32

/-- For a divisor that is not zero, scaling by `1 / y` is dividing by `y`: both are the product with `y⁻¹`. -/
theorem scale_by_recip (x y : EReal) (hy : y ≠ 0) : x * Ideal.div 1 y = Ideal.div x y := by
  unfold Ideal.div
  rw [if_neg hy, if_neg hy, one_mul]

/-- A number clipped below by one is not zero. -/
theorem clipped_ne_zero (d : EReal) : max d 1 ≠ 0 :=
  (lt_of_lt_of_le zero_lt_one (le_max_right d 1)).ne'

/-- One entry of the neighbour mean: the sum `s` scaled by the reciprocal of the clipped degree is `s` divided by
    the clipped degree, the clip written either way round. -/
theorem mean_entry (s d : EReal) : s * Ideal.div 1 (max d 1) = Ideal.div s (max 1 d) := by
  rw [max_comm 1 d]
  exact scale_by_recip s _ (clipped_ne_zero d)

/-- The neighbour mean as whole arrays. The kernel's host code forms the vector `1 / max deg 1`, views it as a column,
    widens it to the 128 features and multiplies the sums by it; the reference clips the degrees as `max 1 deg`,
    views and widens that the same way and divides the sums by it. Entry `(r, j)` of either side reads the sum at
    `(r, j)` and the degree of node `r`, so the two arrays agree by `mean_entry`. The reference's clip passes its
    constant through a conversion that is the identity. -/
theorem mean_array (agg : FVec Ideal Cert.KernelIdeal.S100000x128 .f32) (deg : FVec Ideal Cert.KernelIdeal.S100000 .f32) :
    mulf agg (broadcastInDim Cert.KernelIdeal.S100000x128 ![0, 1] Cert.KernelIdeal.Facts₀.bcast_S100000x1_S100000x128_0_1
        (broadcastInDim Cert.KernelIdeal.S100000x1 ![0] Cert.KernelIdeal.Facts₀.bcast_S100000_S100000x1_0
          (Host.divf (F := Ideal)
            (broadcastInDim Cert.KernelIdeal.S100000 ![] Cert.KernelIdeal.Facts₀.bcast_S_S100000
              (constant (F := Ideal) Cert.KernelIdeal.S_ .f32 0x3F800000#32))
            (maximumf deg (broadcastInDim Cert.KernelIdeal.S100000 ![] Cert.KernelIdeal.Facts₀.bcast_S_S100000
              (constant (F := Ideal) Cert.KernelIdeal.S_ .f32 0x3F800000#32))))))
      = Host.divf (F := Ideal) agg
          (broadcastInDim Cert.ReferenceIdeal.S100000x128 ![0, 1] Cert.ReferenceIdeal.Facts₀.bcast_S100000x1_S100000x128_0_1
            (broadcastInDim Cert.ReferenceIdeal.S100000x1 ![0] Cert.ReferenceIdeal.Facts₀.bcast_S100000_S100000x1_0
              (maximumf (broadcastInDim Cert.ReferenceIdeal.S100000 ![] Cert.ReferenceIdeal.Facts₀.bcast_S_S100000
                (id (constant (F := Ideal) Cert.ReferenceIdeal.S_ .f32 0x3F800000#32))) deg))) := by
  funext i
  obtain ⟨r, j, rfl⟩ : ∃ (r : Fin 100000) (j : Fin 128), i = ix2 r j := ⟨i 0, i 1, eq_ix2 i⟩
  rw [mulf_apply, hostDivf_apply, Broadcasts.widen_apply, Broadcasts.widen_apply, Broadcasts.column_apply,
    Broadcasts.column_apply, hostDivf_apply, maximumf_apply, maximumf_apply, Broadcasts.scalar_apply,
    Broadcasts.scalar_apply, id_eq, constant_apply, word_one]
  exact mean_entry _ _

/-- The same equation with the reference's identity conversion of the constant dropped. -/
theorem mean_array_plain (agg : FVec Ideal Cert.KernelIdeal.S100000x128 .f32) (deg : FVec Ideal Cert.KernelIdeal.S100000 .f32) :
    mulf agg (broadcastInDim Cert.KernelIdeal.S100000x128 ![0, 1] Cert.KernelIdeal.Facts₀.bcast_S100000x1_S100000x128_0_1
        (broadcastInDim Cert.KernelIdeal.S100000x1 ![0] Cert.KernelIdeal.Facts₀.bcast_S100000_S100000x1_0
          (Host.divf (F := Ideal)
            (broadcastInDim Cert.KernelIdeal.S100000 ![] Cert.KernelIdeal.Facts₀.bcast_S_S100000
              (constant (F := Ideal) Cert.KernelIdeal.S_ .f32 0x3F800000#32))
            (maximumf deg (broadcastInDim Cert.KernelIdeal.S100000 ![] Cert.KernelIdeal.Facts₀.bcast_S_S100000
              (constant (F := Ideal) Cert.KernelIdeal.S_ .f32 0x3F800000#32))))))
      = Host.divf (F := Ideal) agg
          (broadcastInDim Cert.ReferenceIdeal.S100000x128 ![0, 1] Cert.ReferenceIdeal.Facts₀.bcast_S100000x1_S100000x128_0_1
            (broadcastInDim Cert.ReferenceIdeal.S100000x1 ![0] Cert.ReferenceIdeal.Facts₀.bcast_S100000_S100000x1_0
              (maximumf (broadcastInDim Cert.ReferenceIdeal.S100000 ![] Cert.ReferenceIdeal.Facts₀.bcast_S_S100000
                (constant (F := Ideal) Cert.ReferenceIdeal.S_ .f32 0x3F800000#32)) deg))) :=
  mean_array agg deg

end Cert.Sage

end
-- ==== Proof.LibUnitReshapes.lean ====
/-
  Reshapes that only add or drop an axis of extent one, read at an index.

  A reshape keeps the row-major position.  A vector of n entries seen as a column [n, 1] has entry p at (p, 0); seen
  as a row [1, n] it has entry c at (0, c); and a column [n, 1] seen as a vector has entry (p, 0) at p.
-/
import Idealize.ShloMosaic.Lib.ValueIdx
import Idealize.ShloMosaic.Lib.Pipeline.Value

noncomputable section

namespace UnitReshapes

open Idealize.ShloMosaic Idealize.ShloMosaic.ValueIdx

variable {α : Type}

/-- A vector seen as a column reads entry p at (p, 0). -/
theorem asColumn_apply {n : Nat} (h : (⟨1, ![n]⟩ : Shape).ShapeCasts ⟨2, ![n, 1]⟩) (x : (⟨1, ![n]⟩ : Shape).Idx → α) (p : Fin n) :
    shapeCast (⟨2, ![n, 1]⟩ : Shape) x h (ix2 p (0 : Fin 1)) = x (ix1 p) :=
  shapeCast_apply x h _ (ix1 p) (by
    rw [Shape.rowMajor_val_one, Shape.rowMajor_val_two]
    show p.val = p.val * 1 + 0
    omega)

/-- A vector seen as a row reads entry c at (0, c). -/
theorem asRow_apply {n : Nat} (h : (⟨1, ![n]⟩ : Shape).ShapeCasts ⟨2, ![1, n]⟩) (x : (⟨1, ![n]⟩ : Shape).Idx → α) (c : Fin n) :
    shapeCast (⟨2, ![1, n]⟩ : Shape) x h (ix2 (0 : Fin 1) c) = x (ix1 c) :=
  shapeCast_apply x h _ (ix1 c) (by
    rw [Shape.rowMajor_val_one, Shape.rowMajor_val_two]
    show c.val = 0 * n + c.val
    omega)

/-- A column seen as a vector reads entry (p, 0) at p. -/
theorem ofColumn_apply {n : Nat} (h : (⟨2, ![n, 1]⟩ : Shape).ShapeCasts ⟨1, ![n]⟩) (x : (⟨2, ![n, 1]⟩ : Shape).Idx → α) (p : Fin n) :
    shapeCast (⟨1, ![n]⟩ : Shape) x h (ix1 p) = x (ix2 p (0 : Fin 1)) :=
  shapeCast_apply x h _ (ix2 p (0 : Fin 1)) (by
    rw [Shape.rowMajor_val_one, Shape.rowMajor_val_two]
    show p.val * 1 + 0 = p.val
    omega)

end UnitReshapes

end
-- ==== Proof.Bridge.lean ====
/-
  The kernel program's results are the reference's.

  Both programs gather, scatter-add and clip with the same host operations, so the neighbour sums and the degrees
  are the same terms; the kernel's row scaling by `1 / max (deg r) 1` is the reference's division by
  `max 1 (deg r)`; a layer region's `max (h · Ws + hn · Wn + b) 0`, entry by entry two sums over the input
  features, is the reference's two matrix products, bias broadcast and rectifier; a score region's row inner
  products are the reference's product summed along the features. Composed three layers deep and through the
  endpoint gathers, the two results agree as whole arrays.
-/
import proofs.«158304_j10900626997366_2_alg».proof.Proof.HostChain
import proofs.«158304_j10900626997366_2_alg».proof.Proof.RefTerms
import proofs.«158304_j10900626997366_2_alg».proof.Proof.NbrMean
import proofs.«158304_j10900626997366_2_alg».proof.Proof.LibUnitReshapes

noncomputable section

namespace Cert.Sage

open Idealize.ShloMosaic Idealize.ShloMosaic.TcCoe Idealize.SL.Sem Idealize.ShloMosaic.ValueIdx

/-! ## The shared host terms -/

theorem nbrSum_same (h : (⟨Cert.KernelIdeal.S100000x128, .f32⟩ : BufTy).Contents (Elt Ideal)) (src dst : (⟨Cert.KernelIdeal.S1600000, .i32⟩ : BufTy).Contents (Elt Ideal)) :
    K.nbrSum h src dst = R.nbrSum h src dst := rfl

theorem degree_same (dst : (⟨Cert.KernelIdeal.S1600000, .i32⟩ : BufTy).Contents (Elt Ideal)) : K.degree (F := Ideal) dst = R.degree dst := rfl

theorem rowsP_same (h : (⟨Cert.KernelIdeal.S100000x16, .f32⟩ : BufTy).Contents (Elt Ideal)) (idx : (⟨Cert.KernelIdeal.S100000, .i32⟩ : BufTy).Contents (Elt Ideal)) : K.rowsP h idx = R.rowsP h idx := rfl

theorem rowsN_same (h : (⟨Cert.KernelIdeal.S100000x16, .f32⟩ : BufTy).Contents (Elt Ideal)) (idx : (⟨Cert.KernelIdeal.S500000, .i32⟩ : BufTy).Contents (Elt Ideal)) : K.rowsN h idx = R.rowsN h idx := rfl

/-! ## The neighbour means -/

theorem nbrMean_same (h : (⟨Cert.KernelIdeal.S100000x128, .f32⟩ : BufTy).Contents (Elt Ideal)) (src dst : (⟨Cert.KernelIdeal.S1600000, .i32⟩ : BufTy).Contents (Elt Ideal)) :
    K.nbrMean h src dst = R.mean h src dst := by
  unfold K.nbrMean K.scaled K.invDeg R.mean R.clipDeg
  rw [← nbrSum_same, ← degree_same]
  exact mean_array (K.nbrSum h src dst) (K.degree dst)

/-! ## The layers -/

/-- The bias vector seen as a row has bias `j` at `(0, j)`. -/
theorem biasRow128_apply (b : (⟨Cert.KernelIdeal.S128, .f32⟩ : BufTy).Contents (Elt Ideal)) (j : Fin 128) : K.biasRow128 b (ix2 (0 : Fin 1) j) = b (ix1 j) :=
  UnitReshapes.asRow_apply _ b j

theorem biasRow16_apply (b : (⟨Cert.KernelIdeal.S16, .f32⟩ : BufTy).Contents (Elt Ideal)) (j : Fin 16) : K.biasRow16 b (ix2 (0 : Fin 1) j) = b (ix1 j) :=
  UnitReshapes.asRow_apply _ b j

theorem layerRelu_same (h : (⟨Cert.KernelIdeal.S100000x128, .f32⟩ : BufTy).Contents (Elt Ideal)) (src dst : (⟨Cert.KernelIdeal.S1600000, .i32⟩ : BufTy).Contents (Elt Ideal))
    (ws wn : (⟨Cert.KernelIdeal.S128x128, .f32⟩ : BufTy).Contents (Elt Ideal)) (b : (⟨Cert.KernelIdeal.S128, .f32⟩ : BufTy).Contents (Elt Ideal)) :
    K.layerRelu h (K.nbrMean h src dst) ws wn (K.biasRow128 b) = R.layerRelu h src dst ws wn b := by
  rw [nbrMean_same]
  refine Eq.trans ?_ (Combine.layerRef128 h (R.mean h src dst) ws wn b).symm
  funext i
  simp only [K.layerRelu, biasRow128_apply]

theorem layerLin_same (h : (⟨Cert.KernelIdeal.S100000x128, .f32⟩ : BufTy).Contents (Elt Ideal)) (src dst : (⟨Cert.KernelIdeal.S1600000, .i32⟩ : BufTy).Contents (Elt Ideal))
    (ws wn : (⟨Cert.KernelIdeal.S128x16, .f32⟩ : BufTy).Contents (Elt Ideal)) (b : (⟨Cert.KernelIdeal.S16, .f32⟩ : BufTy).Contents (Elt Ideal)) :
    K.layerLin h (K.nbrMean h src dst) ws wn (K.biasRow16 b) = R.layerLin h src dst ws wn b := by
  rw [nbrMean_same]
  refine Eq.trans ?_ (Combine.layerRef16 h (R.mean h src dst) ws wn b).symm
  funext i
  simp only [K.layerLin, biasRow16_apply]

/-! ## The scores -/

theorem scoreP_same (gu gv : (⟨Cert.KernelIdeal.S100000x16, .f32⟩ : BufTy).Contents (Elt Ideal)) : K.scoreP gu gv = R.scoreP gu gv :=
  (Score.scoreRef100k gu gv).symm

theorem scoreN_same (gu gv : (⟨Cert.KernelIdeal.S500000x16, .f32⟩ : BufTy).Contents (Elt Ideal)) : K.scoreN gu gv = R.scoreN gu gv :=
  (Score.scoreRef500k gu gv).symm

/-! ## The results -/

variable (m : (ℓ : Loc Cert.KernelIdeal.nD Cert.KernelIdeal.τ Cert.KernelIdeal.sig) → Buf (Elt Ideal) ℓ) (c : Dev Cert.KernelIdeal.nD)

theorem h1_same : K.h1 m c = R.layerRelu (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
  unfold K.h1
  exact layerRelu_same _ _ _ _ _ _

theorem h2_same : K.h2 m c = R.layerRelu (R.layerRelu (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) := by
  unfold K.h2
  rw [h1_same m c]
  exact layerRelu_same _ _ _ _ _ _

theorem h3_same : K.h3 m c = R.layers3 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) := by
  unfold K.h3 R.layers3
  rw [h2_same m c]
  exact layerLin_same _ _ _ _ _ _

/-- The first result: the kernel program's is the reference's, as terms of the argument arrays. -/
theorem out0_same : K.out0 m c = R.out0 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) := by
  unfold K.out0 R.out0
  rw [h3_same m c, rowsP_same, rowsP_same]
  exact scoreP_same _ _

/-- The second result. -/
theorem out1_same : K.out1 m c = R.out1 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) := by
  unfold K.out1 R.out1
  rw [h3_same m c, rowsN_same, rowsN_same]
  exact scoreN_same _ _

end Cert.Sage

end
-- ==== Proof.lean ====
/-
  Three graph layers and two lists of pair scores: a blocked kernel program against its plain reference, on the
  extended reals.

  A layer sends node features `h` (100000 nodes) to `h · Ws + hn · Wn + b`, where row `r` of `hn` is the sum of the
  rows of `h` over the edges into `r` divided by the in-degree of `r` clipped below by one; the first two layers end
  in `max (·) 0`. A pair `(u, v)` is scored by the inner product of rows `u` and `v` of the last layer's features.
  The kernel program computes the neighbour sums on the host, scales them by a reciprocal degree computed once,
  runs each layer's two matrix products, bias and rectifier in one kernel over blocks of 5000 rows, gathers the
  endpoint rows on the host and scores them in a kernel over blocks of 4000 pairs; the reference does all of it
  with whole-array host operations, dividing by the clipped degree. Read exactly, blocks of rows reassemble the
  array, a block's products summed over the 128 input features are the matrix product's entries, and scaling by
  `1 / y` is dividing by `y` whenever `y ≠ 0`, which a number clipped below by one is. Nothing in the argument
  needs an entry to be finite.

  The frames: each program runs to the end without a fault and leaves its arguments as they were (for the two
  kernel programs the region-by-region run; for the reference its host operations run in order). The
  idealization rewrote nothing, so there is nothing to preserve. The value claim: the kernel program's run names
  its two results at the end of the fold of buffer contents through host stretches and regions (ValueRun),
  that fold is walked back to one term of the arguments (HostChain over the regions' value lemmas in
  CombineBlocks and ScoreBlocks), the reference's run names its results as the composition of its operations
  (RefTerms), and the two terms are equal (Bridge, with the division law in NbrMean).
-/
import proofs.«158304_j10900626997366_2_alg».proof.Defs
import proofs.«158304_j10900626997366_2_alg».proof.Proof.Gen.Kernel
import proofs.«158304_j10900626997366_2_alg».proof.Proof.Gen.Kernel.Skeleton
import proofs.«158304_j10900626997366_2_alg».proof.Proof.Gen.Kernel.Launch
import proofs.«158304_j10900626997366_2_alg».proof.Proof.Gen.Kernel.Points
import proofs.«158304_j10900626997366_2_alg».proof.Proof.Gen.Kernel.Frame
import proofs.«158304_j10900626997366_2_alg».proof.Proof.Gen.KernelIdeal
import proofs.«158304_j10900626997366_2_alg».proof.Proof.Gen.KernelIdeal.Skeleton
import proofs.«158304_j10900626997366_2_alg».proof.Proof.Gen.KernelIdeal.Launch
import proofs.«158304_j10900626997366_2_alg».proof.Proof.Gen.KernelIdeal.Points
import proofs.«158304_j10900626997366_2_alg».proof.Proof.Gen.KernelIdeal.Frame
import proofs.«158304_j10900626997366_2_alg».proof.Proof.Gen.ReferenceIdeal
import proofs.«158304_j10900626997366_2_alg».proof.Proof.Gen.ReferenceIdeal.Run
import proofs.«158304_j10900626997366_2_alg».proof.Proof.Gen.Pre_finite_inputs
import proofs.«158304_j10900626997366_2_alg».proof.Proof.ValueRun
import proofs.«158304_j10900626997366_2_alg».proof.Proof.Bridge
import Idealize.ShloMosaic.Adequacy
import Idealize.ShloMosaic.Init

noncomputable section

namespace Cert.Proof

open Idealize.ShloMosaic Idealize.SL.Sem

/-- The printed kernel program runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's host operations run in order and keep its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the same two arrays of scores: the kernel
    program's results are its closed terms of the arguments, the reference's are its composed operations of the
    same arguments, and those are equal. -/
theorem algebraic : Cert.algebraic_KernelIdeal_ReferenceIdeal := by
  intro m ρ m' ρ' _ hagree
  refine ⟨fun c => Cert.Sage.K.out0 m c, fun c => Cert.Sage.K.out1 m c, ?_, ?_⟩
  · exact (θ_run Cert.KernelIdeal.defs _ _).mono
      (fun _ h c => ⟨(h c).1.trans (Cert.Sage.K.result0 m ρ c), (h c).2.1.trans (Cert.Sage.K.result1 m ρ c), (h c).2.2⟩)
      (Cert.Sage.KernelRun.run_results (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15⟩ := hagree c
      refine (Cert.Sage.R.res_out0_eq m' c).trans ?_
      rw [e0, e1, e2, e3, e4, e7, e8, e9, e10, e11, e12, e13, e14, e15]
      exact (Cert.Sage.out0_same m c).symm
    · obtain ⟨e0, e1, e2, e3, e4, e5, e6, e7, e8, e9, e10, e11, e12, e13, e14, e15⟩ := hagree c
      refine (Cert.Sage.R.res_out1_eq m' c).trans ?_
      rw [e0, e1, e2, e5, e6, e7, e8, e9, e10, e11, e12, e13, e14, e15]
      exact (Cert.Sage.out1_same m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
